-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x4096 : Shape := ⟨3, ![128, 64, 4096]⟩
abbrev S128x3 : Shape := ⟨2, ![128, 3]⟩
abbrev S32x3 : Shape := ⟨2, ![32, 3]⟩
abbrev S32 : Shape := ⟨1, ![32]⟩
abbrev S4096x32 : Shape := ⟨2, ![4096, 32]⟩
abbrev S4096 : Shape := ⟨1, ![4096]⟩
abbrev S64x32 : Shape := ⟨2, ![64, 32]⟩
abbrev S64 : Shape := ⟨1, ![64]⟩
abbrev S_ : Shape := ⟨0, ![]⟩

class Facts : Prop where
  bcast_S_S128x64x4096 : S_.BroadcastsInDim S128x64x4096 (![] : Fin 0 → Fin S128x64x4096.rank)
  reducesTo_S128x64x4096_S_d0_1_2 : S128x64x4096.ReducesTo [0, 1, 2] S_
  h_S_ : 0 < S_.numel
  bcast_S_S128x3 : S_.BroadcastsInDim S128x3 (![] : Fin 0 → Fin S128x3.rank)
  reducesTo_S128x3_S_d0_1 : S128x3.ReducesTo [0, 1] S_
  bcast_S_S32x3 : S_.BroadcastsInDim S32x3 (![] : Fin 0 → Fin S32x3.rank)
  reducesTo_S32x3_S_d0_1 : S32x3.ReducesTo [0, 1] S_
  bcast_S_S32 : S_.BroadcastsInDim S32 (![] : Fin 0 → Fin S32.rank)
  reducesTo_S32_S_d0 : S32.ReducesTo [0] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32 .f32) (main_arg12 : FVec F S64x32 .f32) (main_arg13 : FVec F S64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S64x32 .f32 := Host.absf main_arg12
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S4096 .f32) (main_arg8 : FVec F S32x3 .f32) (main_arg9 : FVec F S32 .f32) (main_arg10 : FVec F S32 .f32) (main_arg11 : FVec F S32 .f32) (main_arg12 : FVec F S64x32 .f32) (main_arg13 : FVec F S64 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S32x3 .f32 := Host.absf main_arg8
  let main_cst_14 : FVec F S_ .f32 := constant S_ .f32 0x7F800000#32
  let main_v40 : FVec F S32x3 .f32 := broadcastInDim S32x3 ![] bcast_S_S32x3 main_cst_14
  let main_v41 : IVec S32x3 1 := cmpf .olt main_v39 main_v40
  let main_c_15 : IVec S_ 1 := constantI S_ 1 1#1
  let main_v42 : IVec S_ 1 := (fun x v => Host.reduce IntOp.andi x v reducesTo_S32x3_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_v48 main_v49 main_v50

def fn_part1 {F : FTy → Type} [FloatOps F] (main_arg4 : FVec F S32 .f32) (main_arg5 : FVec F S32 .f32) (main_arg6 : FVec F S4096x32 .f32) (main_arg7 : FVec F S4096 .f32) (main_arg8 : FVec F S32x3 .f32) (main_arg9 : FVec F S32 .f32) (main_arg10 : FVec F S32 .f32) (main_arg11 : FVec F S32 .f32) (main_arg12 : FVec F S64x32 .f32) (main_arg13 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S4096x32 .f32 := Host.absf main_arg6
  let main_cst_10 : FVec F S_ .f32 := constant S_ .f32 0x7F800000#32
  let main_v30 : FVec F S4096x32 .f32 := broadcastInDim S4096x32 ![] bcast_S_S4096x32 main_cst_10
  let main_v31 : IVec S4096x32 1 := cmpf .olt main_v29 main_v30
  let main_c_11 : IVec S_ 1 := constantI S_ 1 1#1
  let main_v32 : IVec S_ 1 := (fun x v => Host.reduce IntOp.andi x v reducesTo_S4096x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x64x4096 .f32) (main_arg1 : FVec F S128x3 .f32) (main_arg2 : FVec F S32x3 .f32) (main_arg3 : FVec F S32 .f32) (main_arg4 : FVec F S32 .f32) (main_arg5 : FVec F S32 .f32) (main_arg6 : FVec F S4096x32 .f32) (main_arg7 : FVec F S4096 .f32) (main_arg8 : FVec F S32x3 .f32) (main_arg9 : FVec F S32 .f32) (main_arg10 : FVec F S32 .f32) (main_arg11 : FVec F S32 .f32) (main_arg12 : FVec F S64x32 .f32) (main_arg13 : FVec F S64 .f32) : IVec S_ 1 :=
  let main_v0 : FVec F S128x64x4096 .f32 := Host.absf main_arg0
  let main_cst : FVec F S_ .f32 := constant S_ .f32 0x7F800000#32
  let main_v1 : FVec F S128x64x4096 .f32 := broadcastInDim S128x64x4096 ![] bcast_S_S128x64x4096 main_cst
  let main_v2 : IVec S128x64x4096 1 := cmpf .olt main_v0 main_v1
  let main_c : IVec S_ 1 := constantI S_ 1 1#1
  let main_v3 : IVec S_ 1 := (fun x v => Host.reduce IntOp.andi x v reducesTo_S128x64x4096_S_d0_1_2 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S32x3 .f32 := Host.absf main_arg2
  let main_cst_2 : FVec F S_ .f32 := constant S_ .f32 0x7F800000#32
  let main_v10 : FVec F S32x3 .f32 := broadcastInDim S32x3 ![] bcast_S_S32x3 main_cst_2
  let main_v11 : IVec S32x3 1 := cmpf .olt main_v9 main_v10
  let main_c_3 : IVec S_ 1 := constantI S_ 1 1#1
  let main_v12 : IVec S_ 1 := (fun x v => Host.reduce IntOp.andi x v reducesTo_S32x3_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x64x4096 : Shape := ⟨3, ![128, 64, 4096]⟩
abbrev S128x3 : Shape := ⟨2, ![128, 3]⟩
abbrev S32x3 : Shape := ⟨2, ![32, 3]⟩
abbrev S32 : Shape := ⟨1, ![32]⟩
abbrev S4096x32 : Shape := ⟨2, ![4096, 32]⟩
abbrev S4096 : Shape := ⟨1, ![4096]⟩
abbrev S64x32 : Shape := ⟨2, ![64, 32]⟩
abbrev S64 : Shape := ⟨1, ![64]⟩
abbrev S3x32 : Shape := ⟨2, ![3, 32]⟩
abbrev S128x32 : Shape := ⟨2, ![128, 32]⟩
abbrev S1x32 : Shape := ⟨2, ![1, 32]⟩
abbrev S_ : Shape := ⟨0, ![]⟩
abbrev S128 : Shape := ⟨1, ![128]⟩
abbrev S128x1 : Shape := ⟨2, ![128, 1]⟩
abbrev S32x4096 : Shape := ⟨2, ![32, 4096]⟩
abbrev S128x4096 : Shape := ⟨2, ![128, 4096]⟩
abbrev S1x4096 : Shape := ⟨2, ![1, 4096]⟩
abbrev S128x64x64 : Shape := ⟨3, ![128, 64, 64]⟩
abbrev S32x64 : Shape := ⟨2, ![32, 64]⟩
abbrev S128x64 : Shape := ⟨2, ![128, 64]⟩
abbrev S1x64 : Shape := ⟨2, ![1, 64]⟩
abbrev S32x4x64x64 : Shape := ⟨4, ![32, 4, 64, 64]⟩
abbrev S32x4x4x64x64 : Shape := ⟨5, ![32, 4, 4, 64, 64]⟩
abbrev S4 : Shape := ⟨1, ![4]⟩
abbrev S4x1 : Shape := ⟨2, ![4, 1]⟩
abbrev S4x2 : Shape := ⟨2, ![4, 2]⟩
abbrev S32x4x64x4x64 : Shape := ⟨5, ![32, 4, 64, 4, 64]⟩
abbrev S32x256x256 : Shape := ⟨3, ![32, 256, 256]⟩
abbrev S32x256x1 : Shape := ⟨3, ![32, 256, 1]⟩
abbrev S32x256x4096 : Shape := ⟨3, ![32, 256, 4096]⟩
abbrev S1x256x256 : Shape := ⟨3, ![1, 256, 256]⟩
abbrev S1x256x1 : Shape := ⟨3, ![1, 256, 1]⟩
abbrev S1x256x2048 : Shape := ⟨3, ![1, 256, 2048]⟩

abbrev nBuf : Space → Nat
  | .hbm => 157
  | .vmem => 8
  | .smem => 0
  | _ => 0

abbrev hbmTy0_0 (i : Nat) : BufTy := match i % 128 with
  | 0 => ⟨S128x64x4096, .f32⟩
  | 1 => ⟨S128x3, .f32⟩
  | 2 => ⟨S32x3, .f32⟩
  | 3 => ⟨S32, .f32⟩
  | 4 => ⟨S32, .f32⟩
  | 5 => ⟨S32, .f32⟩
  | 6 => ⟨S4096x32, .f32⟩
  | 7 => ⟨S4096, .f32⟩
  | 8 => ⟨S32x3, .f32⟩
  | 9 => ⟨S32, .f32⟩
  | 10 => ⟨S32, .f32⟩
  | 11 => ⟨S32, .f32⟩
  | 12 => ⟨S64x32, .f32⟩
  | 13 => ⟨S64, .f32⟩
  | 14 => ⟨S3x32, .f32⟩
  | 15 => ⟨S128x32, .f32⟩
  | 16 => ⟨S1x32, .f32⟩
  | 17 => ⟨S128x32, .f32⟩
  | 18 => ⟨S128x32, .f32⟩
  | 19 => ⟨S_, .f32⟩
  | 20 => ⟨S128, .f32⟩
  | 21 => ⟨S128x1, .f32⟩
  | 22 => ⟨S_, .f32⟩
  | 23 => ⟨S128x1, .f32⟩
  | 24 => ⟨S128x1, .f32⟩
  | 25 => ⟨S_, .i32⟩
  | 26 => ⟨S_, .f32⟩
  | 27 => ⟨S128, .f32⟩
  | 28 => ⟨S128x1, .f32⟩
  | 29 => ⟨S_, .f32⟩
  | 30 => ⟨S128x1, .f32⟩
  | 31 => ⟨S128x1, .f32⟩
  | 32 => ⟨S128x32, .f32⟩
  | 33 => ⟨S128x32, .f32⟩
  | 34 => ⟨S128x32, .f32⟩
  | 35 => ⟨S_, .f32⟩
  | 36 => ⟨S_, .f32⟩
  | 37 => ⟨S_, .f32⟩
  | 38 => ⟨S_, .f32⟩
  | 39 => ⟨S128, .f32⟩
  | 40 => ⟨S128x1, .f32⟩
  | 41 => ⟨S128x1, .f32⟩
  | 42 => ⟨S128x1, .f32⟩
  | 43 => ⟨S_, .f32⟩
  | 44 => ⟨S_, .i1⟩
  | 45 => ⟨S_, .f32⟩
  | 46 => ⟨S_, .f32⟩
  | 47 => ⟨S128x1, .f32⟩
  | 48 => ⟨S128x1, .f32⟩
  | 49 => ⟨S128x32, .f32⟩
  | 50 => ⟨S128x32, .f32⟩
  | 51 => ⟨S_, .f32⟩
  | 52 => ⟨S128x1, .f32⟩
  | 53 => ⟨S128x1, .f32⟩
  | 54 => ⟨S128x1, .f32⟩
  | 55 => ⟨S128x32, .f32⟩
  | 56 => ⟨S128x32, .f32⟩
  | 57 => ⟨S1x32, .f32⟩
  | 58 => ⟨S128x32, .f32⟩
  | 59 => ⟨S128x32, .f32⟩
  | 60 => ⟨S1x32, .f32⟩
  | 61 => ⟨S128x32, .f32⟩
  | 62 => ⟨S128x32, .f32⟩
  | 63 => ⟨S_, .f32⟩
  | 64 => ⟨S128x32, .f32⟩
  | 65 => ⟨S128x32, .f32⟩
  | 66 => ⟨S32x4096, .f32⟩
  | 67 => ⟨S128x4096, .f32⟩
  | 68 => ⟨S1x4096, .f32⟩
  | 69 => ⟨S128x4096, .f32⟩
  | 70 => ⟨S128x4096, .f32⟩
  | 71 => ⟨S128x64x64, .f32⟩
  | 72 => ⟨S3x32, .f32⟩
  | 73 => ⟨S128x32, .f32⟩
  | 74 => ⟨S1x32, .f32⟩
  | 75 => ⟨S128x32, .f32⟩
  | 76 => ⟨S128x32, .f32⟩
  | 77 => ⟨S_, .f32⟩
  | 78 => ⟨S128, .f32⟩
  | 79 => ⟨S128x1, .f32⟩
  | 80 => ⟨S_, .f32⟩
  | 81 => ⟨S128x1, .f32⟩
  | 82 => ⟨S128x1, .f32⟩
  | 83 => ⟨S_, .i32⟩
  | 84 => ⟨S_, .f32⟩
  | 85 => ⟨S128, .f32⟩
  | 86 => ⟨S128x1, .f32⟩
  | 87 => ⟨S_, .f32⟩
  | 88 => ⟨S128x1, .f32⟩
  | 89 => ⟨S128x1, .f32⟩
  | 90 => ⟨S128x32, .f32⟩
  | 91 => ⟨S128x32, .f32⟩
  | 92 => ⟨S128x32, .f32⟩
  | 93 => ⟨S_, .f32⟩
  | 94 => ⟨S_, .f32⟩
  | 95 => ⟨S_, .f32⟩
  | 96 => ⟨S_, .f32⟩
  | 97 => ⟨S128, .f32⟩
  | 98 => ⟨S128x1, .f32⟩
  | 99 => ⟨S128x1, .f32⟩
  | 100 => ⟨S128x1, .f32⟩
  | 101 => ⟨S_, .f32⟩
  | 102 => ⟨S_, .i1⟩
  | 103 => ⟨S_, .f32⟩
  | 104 => ⟨S_, .f32⟩
  | 105 => ⟨S128x1, .f32⟩
  | 106 => ⟨S128x1, .f32⟩
  | 107 => ⟨S128x32, .f32⟩
  | 108 => ⟨S128x32, .f32⟩
  | 109 => ⟨S_, .f32⟩
  | 110 => ⟨S128x1, .f32⟩
  | 111 => ⟨S128x1, .f32⟩
  | 112 => ⟨S128x1, .f32⟩
  | 113 => ⟨S128x32, .f32⟩
  | 114 => ⟨S128x32, .f32⟩
  | 115 => ⟨S1x32, .f32⟩
  | 116 => ⟨S128x32, .f32⟩
  | 117 => ⟨S128x32, .f32⟩
  | 118 => ⟨S1x32, .f32⟩
  | 119 => ⟨S128x32, .f32⟩
  | 120 => ⟨S128x32, .f32⟩
  | 121 => ⟨S_, .f32⟩
  | 122 => ⟨S128x32, .f32⟩
  | 123 => ⟨S128x32, .f32⟩
  | 124 => ⟨S32x64, .f32⟩
  | 125 => ⟨S128x64, .f32⟩
  | 126 => ⟨S1x64, .f32⟩
  | 127 => ⟨S128x64, .f32⟩
  | _ => ⟨S128x64x4096, .f32⟩

abbrev hbmTy0_1 (i : Nat) : BufTy := match i % 128 with
  | 0 => ⟨S128x64, .f32⟩
  | 1 => ⟨S32x4x64x64, .f32⟩
  | 2 => ⟨S_, .f32⟩
  | 3 => ⟨S32x4x4x64x64, .f32⟩
  | 4 => ⟨S4, .i32⟩
  | 5 => ⟨S_, .i32⟩
  | 6 => ⟨S4, .i32⟩
  | 7 => ⟨S4, .i1⟩
  | 8 => ⟨S_, .i32⟩
  | 9 => ⟨S4, .i32⟩
  | 10 => ⟨S4, .i32⟩
  | 11 => ⟨S4, .i32⟩
  | 12 => ⟨S_, .i32⟩
  | 13 => ⟨S4, .i32⟩
  | 14 => ⟨S4, .i1⟩
  | 15 => ⟨S_, .i32⟩
  | 16 => ⟨S4, .i32⟩
  | 17 => ⟨S4, .i32⟩
  | 18 => ⟨S4, .i32⟩
  | 19 => ⟨S4x1, .i32⟩
  | 20 => ⟨S4x1, .i32⟩
  | 21 => ⟨S4x2, .i32⟩
  | 22 => ⟨S32x4x4x64x64, .f32⟩
  | 23 => ⟨S32x4x64x4x64, .f32⟩
  | 24 => ⟨S32x256x256, .f32⟩
  | 25 => ⟨S32x256x1, .f32⟩
  | 26 => ⟨S32x256x4096, .f32⟩
  | 27 => ⟨S32x256x4096, .f32⟩
  | 28 => ⟨S128x64x4096, .f32⟩
  | _ => ⟨S128x64x4096, .f32⟩

abbrev hbmTy (i : Nat) : BufTy := match i / 128 with
  | 0 => hbmTy0_0 i
  | 1 => hbmTy0_1 i
  | _ => ⟨S128x64x4096, .f32⟩

abbrev bufTy : (tb : Table) → Fin (tcTables nBuf tb) → BufTy
  | .hbm, ⟨i, _⟩ => hbmTy i
  | .local _ .vmem, ⟨0, _⟩ => ⟨S1x256x256, .f32⟩
  | .local _ .vmem, ⟨1, _⟩ => ⟨S1x256x256, .f32⟩
  | .local _ .vmem, ⟨2, _⟩ => ⟨S1x256x1, .f32⟩
  | .local _ .vmem, ⟨3, _⟩ => ⟨S1x256x1, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | _, _ => ⟨S128x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call1_cst : Ref sig .tc := ⟨.hbm, 63, rfl⟩
abbrev main_call1_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_2 : Ref sig .tc := ⟨.hbm, 77, rfl⟩
abbrev main_v35 : Ref sig .tc := ⟨.hbm, 78, rfl⟩
abbrev main_v36 : Ref sig .tc := ⟨.hbm, 79, rfl⟩
abbrev main_cst_3 : Ref sig .tc := ⟨.hbm, 80, rfl⟩
abbrev main_v37 : Ref sig .tc := ⟨.hbm, 81, rfl⟩
abbrev main_v38 : Ref sig .tc := ⟨.hbm, 82, rfl⟩
abbrev main_c_4 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_5 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_call3_cst : Ref sig .tc := ⟨.hbm, 121, rfl⟩
abbrev main_call3_v0 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_6 : Ref sig .tc := ⟨.hbm, 130, rfl⟩
abbrev main_v60 : Ref sig .tc := ⟨.hbm, 131, rfl⟩
abbrev main_v61 : Ref sig .tc := ⟨.hbm, 132, rfl⟩
abbrev main_c_7 : Ref sig .tc := ⟨.hbm, 133, rfl⟩
abbrev main_v62 : Ref sig .tc := ⟨.hbm, 134, rfl⟩
abbrev main_v63 : Ref sig .tc := ⟨.hbm, 135, rfl⟩
abbrev main_c_8 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_c_9 : Ref sig .tc := ⟨.hbm, 140, rfl⟩
abbrev main_v67 : Ref sig .tc := ⟨.hbm, 141, rfl⟩
abbrev main_v68 : Ref sig .tc := ⟨.hbm, 142, rfl⟩
abbrev main_c_10 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S32x3_S3x32_1_0 : S32x3.Transposes [1, 0] S3x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  reducesTo_S128x32_S128_d1 : S128x32.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x32_0_1 : S128x1.BroadcastsInDim S128x32 (![0, 1] : Fin 2 → Fin S128x32.rank)
  bcast_S_S128x32 : S_.BroadcastsInDim S128x32 (![] : Fin 0 → Fin S128x32.rank)
  transposes_S4096x32_S32x4096_1_0 : S4096x32.Transposes [1, 0] S32x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S128x64x64 : S128x4096.ShapeCasts S128x64x64
  transposes_S64x32_S32x64_1_0 : S64x32.Transposes [1, 0] S32x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  shapeCasts_S128x64x64_S32x4x64x64 : S128x64x64.ShapeCasts S32x4x64x64
  bcast_S_S32x4x4x64x64 : S_.BroadcastsInDim S32x4x4x64x64 (![] : Fin 0 → Fin S32x4x4x64x64.rank)
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  transposes_S32x4x4x64x64_S32x4x64x4x64_0_1_3_2_4 : S32x4x4x64x64.Transposes [0, 1, 3, 2, 4] S32x4x64x4x64
  shapeCasts_S32x4x64x4x64_S32x256x256 : S32x4x64x4x64.ShapeCasts S32x256x256
  shapeCasts_S128x64_S32x256x1 : S128x64.ShapeCasts S32x256x1
  shapeCasts_S128x64x4096_S32x256x4096 : S128x64x4096.ShapeCasts S32x256x4096
  inb_S1x256x256_S1x256x256_0_0_0 : ∀ a, (![0, 0, 0] : Fin 3 → Nat) a + S1x256x256.size a ≤ S1x256x256.size a
  h_S1x256x256 : 0 < S1x256x256.numel
  shapeCasts_S1x256x256_S1x256x256 : S1x256x256.ShapeCasts S1x256x256
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S1x256x2048 : S1x256x2048.ShapeCasts S1x256x2048
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x2048 : S1x256x1.Broadcasts S1x256x2048
  shapeCasts_S32x256x4096_S128x64x4096 : S32x256x4096.ShapeCasts S128x64x4096
  dot_S128x3_S3x32_S128x32_1_0_0_1_n_n_wf : DotDims.WF S128x3 S3x32 S128x32 [1] [0] [0] [1] [] []
  dot_S128x32_S32x4096_S128x4096_1_0_0_1_n_n_wf : DotDims.WF S128x32 S32x4096 S128x4096 [1] [0] [0] [1] [] []
  dot_S128x32_S32x64_S128x64_1_0_0_1_n_n_wf : DotDims.WF S128x32 S32x64 S128x64 [1] [0] [0] [1] [] []
  scatter_S32x4x4x64x64_S4x2_S32x4x64x64_023_12_12_1_wf : ScatterDims.WF S32x4x4x64x64 S4x2 S32x4x64x64 [0, 2, 3] [1, 2] [1, 2] 1
  dot_S1x256x256_S1x256x2048_S1x256x2048_2_1_1_2_0_0_wf : DotDims.WF S1x256x256 S1x256x2048 S1x256x2048 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S32x256x256.size a
  hwx0_0 : ∀ i : grid0.Coords, EltTy.bits .f32 = 32 ∨ (Rect.block (s := S32x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S32x256x1.size a
  hwx0_1 : ∀ i : grid0.Coords, EltTy.bits .f32 = 32 ∨ (Rect.block (s := S32x256x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S32x256x4096.size a
  hwx0_2 : ∀ i : grid0.Coords, EltTy.bits .f32 = 32 ∨ (Rect.block (s := S32x256x4096) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S32x256x4096.size a
  hwx0_3 : ∀ i : grid0.Coords, EltTy.bits .f32 = 32 ∨ (Rect.block (s := S32x256x4096) S1x256x2048.size (cc0_transform_3 i) (hinb0_3 i)).WholeWords (EltTy.packing .f32)

variable [Facts₀]

def dot_S128x3_S3x32_S128x32_1_0_0_1_n_n : DotDims S128x3 S3x32 S128x32 where
  lhsContracting := [1]
  rhsContracting := [0]
  lhsNonContracting := [0]
  rhsNonContracting := [1]
  lhsBatch := []
  rhsBatch := []
  wf := dot_S128x3_S3x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x32_S32x64_S128x64_1_0_0_1_n_n : DotDims S128x32 S32x64 S128x64 where
  lhsContracting := [1]
  rhsContracting := [0]
  lhsNonContracting := [0]
  rhsNonContracting := [1]
  lhsBatch := []
  rhsBatch := []
  wf := dot_S128x32_S32x64_S128x64_1_0_0_1_n_n_wf
def scatter_S32x4x4x64x64_S4x2_S32x4x64x64_023_12_12_1 : ScatterDims S32x4x4x64x64 S4x2 S32x4x64x64 where
  updateWindowDims := [0, 2, 3]
  insertedWindowDims := [1, 2]
  scatterDimsToOperandDims := [1, 2]
  indexVectorDim := 1
  wf := scatter_S32x4x4x64x64_S4x2_S32x4x64x64_023_12_12_1_wf
def dot_S1x256x256_S1x256x2048_S1x256x2048_2_1_1_2_0_0 : DotDims S1x256x256 S1x256x2048 S1x256x2048 where
  lhsContracting := [2]
  rhsContracting := [1]
  lhsNonContracting := [1]
  rhsNonContracting := [2]
  lhsBatch := [0]
  rhsBatch := [0]
  wf := dot_S1x256x256_S1x256x2048_S1x256x2048_2_1_1_2_0_0_wf

abbrev win0_0 : Pipeline.Window sig grid0 :=
  Pipeline.Window.ofSpec (Memref.whole main_v77) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v79) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v80) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x64x4096 : Shape := ⟨3, ![128, 64, 4096]⟩
abbrev S128x3 : Shape := ⟨2, ![128, 3]⟩
abbrev S32x3 : Shape := ⟨2, ![32, 3]⟩
abbrev S32 : Shape := ⟨1, ![32]⟩
abbrev S4096x32 : Shape := ⟨2, ![4096, 32]⟩
abbrev S4096 : Shape := ⟨1, ![4096]⟩
abbrev S64x32 : Shape := ⟨2, ![64, 32]⟩
abbrev S64 : Shape := ⟨1, ![64]⟩
abbrev S3x32 : Shape := ⟨2, ![3, 32]⟩
abbrev S128x32 : Shape := ⟨2, ![128, 32]⟩
abbrev S1x32 : Shape := ⟨2, ![1, 32]⟩
abbrev S_ : Shape := ⟨0, ![]⟩
abbrev S128 : Shape := ⟨1, ![128]⟩
abbrev S128x1 : Shape := ⟨2, ![128, 1]⟩
abbrev S32x4096 : Shape := ⟨2, ![32, 4096]⟩
abbrev S128x4096 : Shape := ⟨2, ![128, 4096]⟩
abbrev S1x4096 : Shape := ⟨2, ![1, 4096]⟩
abbrev S128x64x64 : Shape := ⟨3, ![128, 64, 64]⟩
abbrev S32x64 : Shape := ⟨2, ![32, 64]⟩
abbrev S128x64 : Shape := ⟨2, ![128, 64]⟩
abbrev S1x64 : Shape := ⟨2, ![1, 64]⟩
abbrev S128x64x1 : Shape := ⟨3, ![128, 64, 1]⟩

abbrev nBuf : Space → Nat
  | .hbm => 133
  | .vmem => 0
  | .smem => 0
  | _ => 0

abbrev hbmTy0_0 (i : Nat) : BufTy := match i % 128 with
  | 0 => ⟨S128x64x4096, .f32⟩
  | 1 => ⟨S128x3, .f32⟩
  | 2 => ⟨S32x3, .f32⟩
  | 3 => ⟨S32, .f32⟩
  | 4 => ⟨S32, .f32⟩
  | 5 => ⟨S32, .f32⟩
  | 6 => ⟨S4096x32, .f32⟩
  | 7 => ⟨S4096, .f32⟩
  | 8 => ⟨S32x3, .f32⟩
  | 9 => ⟨S32, .f32⟩
  | 10 => ⟨S32, .f32⟩
  | 11 => ⟨S32, .f32⟩
  | 12 => ⟨S64x32, .f32⟩
  | 13 => ⟨S64, .f32⟩
  | 14 => ⟨S3x32, .f32⟩
  | 15 => ⟨S128x32, .f32⟩
  | 16 => ⟨S1x32, .f32⟩
  | 17 => ⟨S128x32, .f32⟩
  | 18 => ⟨S128x32, .f32⟩
  | 19 => ⟨S_, .f32⟩
  | 20 => ⟨S128, .f32⟩
  | 21 => ⟨S128x1, .f32⟩
  | 22 => ⟨S_, .f32⟩
  | 23 => ⟨S128x1, .f32⟩
  | 24 => ⟨S128x1, .f32⟩
  | 25 => ⟨S_, .i32⟩
  | 26 => ⟨S_, .f32⟩
  | 27 => ⟨S128, .f32⟩
  | 28 => ⟨S128x1, .f32⟩
  | 29 => ⟨S_, .f32⟩
  | 30 => ⟨S128x1, .f32⟩
  | 31 => ⟨S128x1, .f32⟩
  | 32 => ⟨S128x32, .f32⟩
  | 33 => ⟨S128x32, .f32⟩
  | 34 => ⟨S128x32, .f32⟩
  | 35 => ⟨S_, .f32⟩
  | 36 => ⟨S_, .f32⟩
  | 37 => ⟨S_, .f32⟩
  | 38 => ⟨S_, .f32⟩
  | 39 => ⟨S128, .f32⟩
  | 40 => ⟨S128x1, .f32⟩
  | 41 => ⟨S128x1, .f32⟩
  | 42 => ⟨S128x1, .f32⟩
  | 43 => ⟨S_, .f32⟩
  | 44 => ⟨S_, .i1⟩
  | 45 => ⟨S_, .f32⟩
  | 46 => ⟨S_, .f32⟩
  | 47 => ⟨S128x1, .f32⟩
  | 48 => ⟨S128x1, .f32⟩
  | 49 => ⟨S128x32, .f32⟩
  | 50 => ⟨S128x32, .f32⟩
  | 51 => ⟨S_, .f32⟩
  | 52 => ⟨S128x1, .f32⟩
  | 53 => ⟨S128x1, .f32⟩
  | 54 => ⟨S128x1, .f32⟩
  | 55 => ⟨S128x32, .f32⟩
  | 56 => ⟨S128x32, .f32⟩
  | 57 => ⟨S1x32, .f32⟩
  | 58 => ⟨S128x32, .f32⟩
  | 59 => ⟨S128x32, .f32⟩
  | 60 => ⟨S1x32, .f32⟩
  | 61 => ⟨S128x32, .f32⟩
  | 62 => ⟨S128x32, .f32⟩
  | 63 => ⟨S_, .f32⟩
  | 64 => ⟨S128x32, .f32⟩
  | 65 => ⟨S128x32, .f32⟩
  | 66 => ⟨S32x4096, .f32⟩
  | 67 => ⟨S128x4096, .f32⟩
  | 68 => ⟨S1x4096, .f32⟩
  | 69 => ⟨S128x4096, .f32⟩
  | 70 => ⟨S128x4096, .f32⟩
  | 71 => ⟨S128x64x64, .f32⟩
  | 72 => ⟨S3x32, .f32⟩
  | 73 => ⟨S128x32, .f32⟩
  | 74 => ⟨S1x32, .f32⟩
  | 75 => ⟨S128x32, .f32⟩
  | 76 => ⟨S128x32, .f32⟩
  | 77 => ⟨S_, .f32⟩
  | 78 => ⟨S128, .f32⟩
  | 79 => ⟨S128x1, .f32⟩
  | 80 => ⟨S_, .f32⟩
  | 81 => ⟨S128x1, .f32⟩
  | 82 => ⟨S128x1, .f32⟩
  | 83 => ⟨S_, .i32⟩
  | 84 => ⟨S_, .f32⟩
  | 85 => ⟨S128, .f32⟩
  | 86 => ⟨S128x1, .f32⟩
  | 87 => ⟨S_, .f32⟩
  | 88 => ⟨S128x1, .f32⟩
  | 89 => ⟨S128x1, .f32⟩
  | 90 => ⟨S128x32, .f32⟩
  | 91 => ⟨S128x32, .f32⟩
  | 92 => ⟨S128x32, .f32⟩
  | 93 => ⟨S_, .f32⟩
  | 94 => ⟨S_, .f32⟩
  | 95 => ⟨S_, .f32⟩
  | 96 => ⟨S_, .f32⟩
  | 97 => ⟨S128, .f32⟩
  | 98 => ⟨S128x1, .f32⟩
  | 99 => ⟨S128x1, .f32⟩
  | 100 => ⟨S128x1, .f32⟩
  | 101 => ⟨S_, .f32⟩
  | 102 => ⟨S_, .i1⟩
  | 103 => ⟨S_, .f32⟩
  | 104 => ⟨S_, .f32⟩
  | 105 => ⟨S128x1, .f32⟩
  | 106 => ⟨S128x1, .f32⟩
  | 107 => ⟨S128x32, .f32⟩
  | 108 => ⟨S128x32, .f32⟩
  | 109 => ⟨S_, .f32⟩
  | 110 => ⟨S128x1, .f32⟩
  | 111 => ⟨S128x1, .f32⟩
  | 112 => ⟨S128x1, .f32⟩
  | 113 => ⟨S128x32, .f32⟩
  | 114 => ⟨S128x32, .f32⟩
  | 115 => ⟨S1x32, .f32⟩
  | 116 => ⟨S128x32, .f32⟩
  | 117 => ⟨S128x32, .f32⟩
  | 118 => ⟨S1x32, .f32⟩
  | 119 => ⟨S128x32, .f32⟩
  | 120 => ⟨S128x32, .f32⟩
  | 121 => ⟨S_, .f32⟩
  | 122 => ⟨S128x32, .f32⟩
  | 123 => ⟨S128x32, .f32⟩
  | 124 => ⟨S32x64, .f32⟩
  | 125 => ⟨S128x64, .f32⟩
  | 126 => ⟨S1x64, .f32⟩
  | 127 => ⟨S128x64, .f32⟩
  | _ => ⟨S128x64x4096, .f32⟩

abbrev hbmTy0_1 (i : Nat) : BufTy := match i % 128 with
  | 0 => ⟨S128x64, .f32⟩
  | 1 => ⟨S128x64x4096, .f32⟩
  | 2 => ⟨S128x64x1, .f32⟩
  | 3 => ⟨S128x64x4096, .f32⟩
  | 4 => ⟨S128x64x4096, .f32⟩
  | _ => ⟨S128x64x4096, .f32⟩

abbrev hbmTy (i : Nat) : BufTy := match i / 128 with
  | 0 => hbmTy0_0 i
  | 1 => hbmTy0_1 i
  | _ => ⟨S128x64x4096, .f32⟩

abbrev bufTy : (tb : Table) → Fin (tcTables nBuf tb) → BufTy
  | .hbm, ⟨i, _⟩ => hbmTy i
  | _, _ => ⟨S128x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call1_cst : Ref sig .tc := ⟨.hbm, 63, rfl⟩
abbrev main_call1_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_2 : Ref sig .tc := ⟨.hbm, 77, rfl⟩
abbrev main_v35 : Ref sig .tc := ⟨.hbm, 78, rfl⟩
abbrev main_v36 : Ref sig .tc := ⟨.hbm, 79, rfl⟩
abbrev main_cst_3 : Ref sig .tc := ⟨.hbm, 80, rfl⟩
abbrev main_v37 : Ref sig .tc := ⟨.hbm, 81, rfl⟩
abbrev main_v38 : Ref sig .tc := ⟨.hbm, 82, rfl⟩
abbrev main_c_4 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_5 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_call3_cst : Ref sig .tc := ⟨.hbm, 121, rfl⟩
abbrev main_call3_v0 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩

abbrev nD : Nat := 1
abbrev τ : Topo := Topo.v7x

variable {F : FTy → Type} [FloatOps F]

class Facts₀ : Prop where
  transposes_S32x3_S3x32_1_0 : S32x3.Transposes [1, 0] S3x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  reducesTo_S128x32_S128_d1 : S128x32.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x32_0_1 : S128x1.BroadcastsInDim S128x32 (![0, 1] : Fin 2 → Fin S128x32.rank)
  bcast_S_S128x32 : S_.BroadcastsInDim S128x32 (![] : Fin 0 → Fin S128x32.rank)
  transposes_S4096x32_S32x4096_1_0 : S4096x32.Transposes [1, 0] S32x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S128x64x64 : S128x4096.ShapeCasts S128x64x64
  transposes_S64x32_S32x64_1_0 : S64x32.Transposes [1, 0] S32x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S128x64_S128x64x1_0_1 : S128x64.BroadcastsInDim S128x64x1 (![0, 1] : Fin 2 → Fin S128x64x1.rank)
  bcast_S128x64x1_S128x64x4096_0_1_2 : S128x64x1.BroadcastsInDim S128x64x4096 (![0, 1, 2] : Fin 3 → Fin S128x64x4096.rank)
  dot_S128x3_S3x32_S128x32_1_0_0_1_n_n_wf : DotDims.WF S128x3 S3x32 S128x32 [1] [0] [0] [1] [] []
  dot_S128x32_S32x4096_S128x4096_1_0_0_1_n_n_wf : DotDims.WF S128x32 S32x4096 S128x4096 [1] [0] [0] [1] [] []
  dot_S128x32_S32x64_S128x64_1_0_0_1_n_n_wf : DotDims.WF S128x32 S32x64 S128x64 [1] [0] [0] [1] [] []
  dot_S128x64x64_S128x64x4096_S128x64x4096_2_1_1_2_0_0_wf : DotDims.WF S128x64x64 S128x64x4096 S128x64x4096 [2] [1] [1] [2] [0] [0]

variable [Facts₀]

def dot_S128x3_S3x32_S128x32_1_0_0_1_n_n : DotDims S128x3 S3x32 S128x32 where
  lhsContracting := [1]
  rhsContracting := [0]
  lhsNonContracting := [0]
  rhsNonContracting := [1]
  lhsBatch := []
  rhsBatch := []
  wf := dot_S128x3_S3x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x32_S32x64_S128x64_1_0_0_1_n_n : DotDims S128x32 S32x64 S128x64 where
  lhsContracting := [1]
  rhsContracting := [0]
  lhsNonContracting := [0]
  rhsNonContracting := [1]
  lhsBatch := []
  rhsBatch := []
  wf := dot_S128x32_S32x64_S128x64_1_0_0_1_n_n_wf
def dot_S128x64x64_S128x64x4096_S128x64x4096_2_1_1_2_0_0 : DotDims S128x64x64 S128x64x4096 S128x64x4096 where
  lhsContracting := [2]
  rhsContracting := [1]
  lhsNonContracting := [1]
  rhsNonContracting := [2]
  lhsBatch := [0]
  rhsBatch := [0]
  wf := dot_S128x64x64_S128x64x4096_S128x64x4096_2_1_1_2_0_0_wf

class Facts : Prop extends Facts₀ where

variable [Facts]
-- ==== Proof.KerBlock.lean ====
/-
  One grid point of the kernel, read at an entry of the block it stores.

  The body loads a [1,256,256] block `w` of the packed weight, a [1,256,2048] block `x` of the packed input and a
  [1,256,1] column `b` of the packed bias, and stores `matmul(w, x) + b` with `b` repeated along the last axis. On the
  extended reals a change of float format is the identity and a product accumulated into zero is the plain sum over the
  contracted axis, so entry (0, r, s) of the stored block is  Σ_k w(0,r,k) · x(0,k,s) + b(0,r,0).
-/
import proofs.«100930_j83623013253335_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The body's product: batch axis 0, rows of the left operand, columns of the right, one contracted axis of extent 256. -/
abbrev D := dot_S1x256x256_S1x256x2048_S1x256x2048_2_1_1_2_0_0

/-! The operand indices of the product at output index `i` and contraction index `q`, coordinate by coordinate:
    the left operand is read at (i₀, i₁, q), the right one at (i₀, q, i₂). -/

theorem lhs0 (i : S1x256x2048.Idx) (q : D.contr.Idx) : (D.lhsIdx i q 0).val = (i 0).val := by
  unfold DotDims.lhsIdx
  rw [dif_pos (show (0 : Fin S1x256x256.rank) ∈ D.lhsBatch by decide)]
  rfl

theorem lhs1 (i : S1x256x2048.Idx) (q : D.contr.Idx) : (D.lhsIdx i q 1).val = (i 1).val := by
  unfold DotDims.lhsIdx
  rw [dif_neg (show ¬(1 : Fin S1x256x256.rank) ∈ D.lhsBatch by decide),
    dif_pos (show (1 : Fin S1x256x256.rank) ∈ D.lhsNonContracting by decide)]
  rfl

theorem lhs2 (i : S1x256x2048.Idx) (q : D.contr.Idx) : (D.lhsIdx i q 2).val = (q ⟨0, by decide⟩).val :=
  D.lhsIdx_val_of_single rfl i q

theorem rhs0 (i : S1x256x2048.Idx) (q : D.contr.Idx) : (D.rhsIdx i q 0).val = (i 0).val := by
  unfold DotDims.rhsIdx
  rw [dif_pos (show (0 : Fin S1x256x2048.rank) ∈ D.rhsBatch by decide)]
  rfl

theorem rhs1 (i : S1x256x2048.Idx) (q : D.contr.Idx) : (D.rhsIdx i q 1).val = (q ⟨0, by decide⟩).val :=
  D.rhsIdx_val_of_single rfl i q

theorem rhs2 (i : S1x256x2048.Idx) (q : D.contr.Idx) : (D.rhsIdx i q 2).val = (i 2).val := by
  unfold DotDims.rhsIdx
  rw [dif_neg (show ¬(2 : Fin S1x256x2048.rank) ∈ D.rhsBatch by decide),
    dif_pos (show (2 : Fin S1x256x2048.rank) ∈ D.rhsNonContracting by decide)]
  rfl

/-- The product into a zero accumulator, at entry (0, r, s): the sum over the 256 contracted positions. -/
theorem product_apply (w : FVec Ideal S1x256x256 .bf16) (x : FVec Ideal S1x256x2048 .bf16) (r : Fin 256) (s : Fin 2048) :
    FloatOps.matmul D none w x (constant S1x256x2048 .f32 0x00000000#32) (ix3 (0 : Fin 1) r s)
      = ∑ k : Fin 256, w (ix3 (0 : Fin 1) r k) * x (ix3 (0 : Fin 1) k s) := by
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix3 (0 : Fin 1) r s) ((contrEquiv1 D 256 rfl rfl).symm k) = ix3 (0 : Fin 1) r k :=
    funext fun a => Fin.ext (by
      match a with
      | ⟨0, _⟩ => exact lhs0 _ _
      | ⟨1, _⟩ => exact lhs1 _ _
      | ⟨2, _⟩ => exact (lhs2 _ _).trans hk)
  have er : D.rhsIdx (ix3 (0 : Fin 1) r s) ((contrEquiv1 D 256 rfl rfl).symm k) = ix3 (0 : Fin 1) k s :=
    funext fun a => Fin.ext (by
      match a with
      | ⟨0, _⟩ => exact rhs0 _ _
      | ⟨1, _⟩ => exact (rhs1 _ _).trans hk
      | ⟨2, _⟩ => exact rhs2 _ _)
  rw [el, er]

/-- The bias column repeated along the last axis, at entry (0, r, s): the column's row r. -/
theorem column_apply (b : Vec Ideal S1x256x1 .f32) (r : Fin 256) (s : Fin 2048) :
    broadcastTo S1x256x2048 b broadcasts_S1x256x1_S1x256x2048 (ix3 (0 : Fin 1) r s) = b (ix3 (0 : Fin 1) r (0 : Fin 1)) :=
  broadcastTo_apply b _ (ix3 (0 : Fin 1) r s) (ix3 (0 : Fin 1) r (0 : Fin 1)) (fun a => by
    match a with
    | ⟨0, _⟩ => rfl
    | ⟨1, _⟩ => rfl
    | ⟨2, _⟩ => rfl)

/-- The stored value of the body at entry (0, r, s). -/
theorem stored_apply (w : Vec Ideal S1x256x256 .f32) (x : Vec Ideal S1x256x2048 .f32) (b : Vec Ideal S1x256x1 .f32)
    (r : Fin 256) (s : Fin 2048) :
    k0_pay1 (F := Ideal) w x b (ix3 (0 : Fin 1) r s)
      = (∑ k : Fin 256, w (ix3 (0 : Fin 1) r k) * x (ix3 (0 : Fin 1) k s)) + b (ix3 (0 : Fin 1) r (0 : Fin 1)) := by
  unfold k0_pay1
  simp only [shapeCast_self]
  refine (addf_apply _ _ _).trans ?_
  refine congrArg₂ (· + ·) ?_ (column_apply b r s)
  exact product_apply _ _ r s

end Cert.KernelIdeal.Block

end
-- ==== Proof.KerValue.lean ====
/-
  The kernel's region, read as one array.

  Grid point (g, h) of the 32 × 2 grid loads block g of the packed weight [32,256,256], block g of the packed bias
  [32,256,1] and block (g, h) of the packed input [32,256,4096] (columns 2048·h … 2048·h + 2047), and writes back block
  (g, h) of the output [32,256,4096]. Every flushed block is the matching block of ONE function of the three arrays,
      packed W B X (g, r, t) = Σ_k W(g, r, k) · X(g, k, t) + B(g, r, 0),
  and the 64 blocks tile the output, so after the region the output array is `packed` of the arrays the region found.
-/
import proofs.«100930_j83623013253335_2_alg».proof.Proof.Gen.KernelIdeal.Frame
import proofs.«100930_j83623013253335_2_alg».proof.Proof.KerBlock
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- Entry (g, r, t) of the packed product plus bias. -/
def packedAt (W : S32x256x256.Idx → EReal) (B : S32x256x1.Idx → EReal) (X : S32x256x4096.Idx → EReal)
    (g : Fin 32) (r : Fin 256) (t : Fin 4096) : EReal :=
  (∑ k : Fin 256, W (ix3 g r k) * X (ix3 g k t)) + B (ix3 g r (0 : Fin 1))

/-- The whole output array as a function of the packed weight, bias and input. -/
def packed (W : S32x256x256.Idx → EReal) (B : S32x256x1.Idx → EReal) (X : S32x256x4096.Idx → EReal) :
    S32x256x4096.Idx → EReal :=
  fun i => packedAt W B X (i 0) (i 1) (i 2)

/-- The index maps, decided over the 64 grid points: the weight and bias blocks follow the output's block on axis 0
    and sit at 0 on the other axes; the input's block is the output's. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0
    ∧ win0_2.index t (2 : Fin 3) = win0_3.index t (2 : Fin 3)
    ∧ win0_3.index t (0 : Fin 3) ≤ 31 ∧ win0_3.index t (1 : Fin 3) = 0 ∧ win0_3.index t (2 : Fin 3) ≤ 1 :=
  (by decide +kernel : ∀ t : Fin grid0.N, _)

/-- Every block of the output is some grid point's. -/
theorem idx_onto : ∀ (q0 : Fin 32) (q2 : Fin 2), ∃ t : Fin cfg0.N, win0_3.index t = ![q0.val, 0, q2.val] :=
  (by decide +kernel : ∀ (q0 : Fin 32) (q2 : Fin 2), ∃ t : Fin grid0.N, win0_3.index t = ![q0.val, 0, q2.val])

/-- The core, over ANY three arrays: the body's stored block at point `t`, computed from the three input blocks of
    the arrays, is block `t` of `packed` of the arrays. -/
theorem block_eq (A0 : S32x256x256.Idx → EReal) (A1 : S32x256x1.Idx → EReal) (A2 : S32x256x4096.Idx → EReal)
    (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (packed A0 A1 A2) := by
  unfold out0_3
  rw [View.canon_unit_zero hz3]
  simp only [View.ld_unit_zero (S := S1x256x256) hz3, View.ld_unit_zero (S := S1x256x2048) hz3,
    View.ld_unit_zero (S := S1x256x1) hz3]
  obtain ⟨e00, e01, e02, e10, e11, e12, e20, e21, e22, b0, e31, b2⟩ := idx_facts t
  funext j
  have hj0 : (j 0).val < 1 := (j 0).isLt
  have hj1 : (j 1).val < 256 := (j 1).isLt
  have hj2 : (j 2).val < 2048 := (j 2).isLt
  have hj : (j : S1x256x2048.Idx) = ix3 (0 : Fin 1) (j 1) (j 2) := by
    funext a
    match a with
    | ⟨0, _⟩ => exact Fin.ext (by show (j 0).val = 0; omega)
    | ⟨1, _⟩ => rfl
    | ⟨2, _⟩ => rfl
  show k0_pay1 (F := Ideal) (((cfg0.win 0).blk t).view.read (Elt Ideal) A0) (((cfg0.win 2).blk t).view.read (Elt Ideal) A2)
        (((cfg0.win 1).blk t).view.read (Elt Ideal) A1) j
      = packed A0 A1 A2 (((cfg0.win 3).blk t).view.emb j)
  refine (congrArg (k0_pay1 (F := Ideal) (((cfg0.win 0).blk t).view.read (Elt Ideal) A0) (((cfg0.win 2).blk t).view.read (Elt Ideal) A2)
        (((cfg0.win 1).blk t).view.read (Elt Ideal) A1)) hj).trans ?_
  refine (Block.stored_apply _ _ _ (j 1) (j 2)).trans ?_
  unfold packed packedAt
  refine congrArg₂ (· + ·) (Finset.sum_congr rfl fun k _ => congrArg₂ (· * ·) ?_ ?_) ?_
  · show A0 (((cfg0.win 0).blk t).view.emb (ix3 (0 : Fin 1) (j 1) k)) = A0 _
    refine congrArg A0 (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 256 + 1 * (j 1).val = win0_3.index t (1 : Fin 3) * 256 + 1 * (j 1).val; omega
    | ⟨2, _⟩ => show win0_0.index t (2 : Fin 3) * 256 + 1 * k.val = k.val; omega
  · show A2 (((cfg0.win 2).blk t).view.emb (ix3 (0 : Fin 1) k (j 2))) = A2 _
    refine congrArg A2 (funext fun a => Fin.ext ?_)
    match a with
    | ⟨0, _⟩ => show win0_2.index t (0 : Fin 3) * 1 + 1 * 0 = win0_3.index t (0 : Fin 3) * 1 + 1 * (j 0).val; omega
    | ⟨1, _⟩ => show win0_2.index t (1 : Fin 3) * 256 + 1 * k.val = k.val; omega
    | ⟨2, _⟩ => show win0_2.index t (2 : Fin 3) * 2048 + 1 * (j 2).val = win0_3.index t (2 : Fin 3) * 2048 + 1 * (j 2).val; omega
  · show A1 (((cfg0.win 1).blk t).view.emb (ix3 (0 : Fin 1) (j 1) (0 : Fin 1))) = A1 _
    refine congrArg A1 (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 256 + 1 * (j 1).val = win0_3.index t (1 : Fin 3) * 256 + 1 * (j 1).val; omega
    | ⟨2, _⟩ => show win0_1.index t (2 : Fin 3) * 1 + 1 * 0 = 0; omega

/-- What grid point `t` writes back is block `t` of `packed` of the arrays as the region finds them. -/
theorem flushed_eq (c : Dev nD) (t : Fin cfg0.N) :
    (dats m 0 c).flushed 3 t
      = ((cfg0.win 3).blk t).view.read (Elt Ideal) (packed (V m c main_v77) (V m c main_v78) (V m c main_v79)) := by
  show (cfg0.win 3).cut (grid0.coords t) ((dats m 0 c).after 3 t) = _
  rw [after0_3]
  exact block_eq (V m c main_v77) (V m c main_v78) (V m c main_v79) t

/-- An index of the output is in point `t`'s block iff each coordinate is in the block's range on its axis. -/
theorem mem_blk (t : Fin cfg0.N) (i : S32x256x4096.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v80).slice (win0_3.rect t)).set ↔ _
  rw [View.set_slice_whole, Rect.mem_set_unit]
  exact Iff.rfl

/-- The 64 blocks cover the output: entry (g, r, t) lies in the block of the point with block index (g, 0, t / 2048). -/
theorem cover (i : S32x256x4096.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 4096 := (i 2).isLt
  obtain ⟨t, ht⟩ := idx_onto ⟨(i 0).val, hi0⟩ ⟨(i 2).val / 2048, by omega⟩
  have q0 : win0_3.index t (0 : Fin 3) = (i 0).val := congrFun ht 0
  have q1 : win0_3.index t (1 : Fin 3) = 0 := congrFun ht 1
  have q2 : win0_3.index t (2 : Fin 3) = (i 2).val / 2048 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- The output array after the region. -/
theorem final (c : Dev nD) :
    (dats m 0 c).arrAt 3 cfg0.N = packed (V m c main_v77) (V m c main_v78) (V m c main_v79) :=
  (dats m 0 c).arrAt_eq_of_cover 3 (packed (V m c main_v77) (V m c main_v78) (V m c main_v79))
    (fun t _ => flushed_eq m c t) cover

end Cert.KernelIdeal.Region

end
-- ==== Proof.KerRun.lean ====
/-
  The kernel program's run, read: after the region the one remaining host operation lays the region's output
  [32,256,4096] out as [128,64,4096], so the program's result is that re-layout of `packed` of the three arrays the
  region found, and the fourteen argument arrays end as they were launched.
-/
import proofs.«100930_j83623013253335_2_alg».proof.Proof.KerValue
import Idealize.ShloMosaic.Lib.StableHlo.Run

noncomputable section

namespace Cert.KernelIdeal.Region

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The program's result on core `c`: the region's output array laid out as [128,64,4096]. -/
def result (c : Dev nD) : S128x64x4096.Idx → EReal :=
  fun i => shapeCast S128x64x4096 (packed (V m c main_v77) (V m c main_v78) (V m c main_v79))
    shapeCasts_S32x256x4096_S128x64x4096 i

/-- The result in terms of any three arrays equal to the ones the region found. -/
theorem result_congr (c : Dev nD) (A0 : S32x256x256.Idx → EReal) (A1 : S32x256x1.Idx → EReal) (A2 : S32x256x4096.Idx → EReal)
    (h0 : V m c main_v77 = A0) (h1 : V m c main_v78 = A1) (h2 : V m c main_v79 = A2) :
    result m c = fun i => shapeCast S128x64x4096 (packed A0 A1 A2) shapeCasts_S32x256x4096_S128x64x4096 i := by
  subst h0 h1 h2
  rfl

/-- What the host operation after the region leaves in the result buffer. -/
theorem tail_eq (c : Dev nD) :
    Pipeline.afterTail₀ cfgs (dats m) 0 (V0 m) [hostOps1] c main_v81 = result m c := by
  unfold Pipeline.afterTail₀
  show StableHlo.after hostOps1 _ (Proc.devRef .tc main_v81) = _
  after_results
  have h := (Pipeline.withArrays_arr spec0 launch0.win.arr_inj c (V0 m c) (fun w => (dats m 0 c).arrAt w cfg0.N) 3).trans
    (final m c)
  funext i
  exact congrArg (fun x : S32x256x4096.Idx → EReal => shapeCast S128x64x4096 x shapeCasts_S32x256x4096_S128x64x4096 i) h

/-- The run: the result buffer ends at `result`, every argument array as launched. -/
theorem run : θ_run defs (onTc (τ := τ) (main (F := Ideal))) ⟨m, fun _ => 0, ρ⟩ fun r => ∀ c : Dev nD,
      r.2.mem ((c.tc : Thread nD τ).loc main_v81) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).2 main_v81 (Pipeline.mem_restRefs_of main_v81 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩)
    (run_main m ρ)

end Cert.KernelIdeal.Region

end
-- ==== Proof.Head.lean ====
/-
  The part both programs share: the two small networks that turn the conditioning vector z [128,3] into the per-sample
  weight [128,64,64] and bias [128,64], written once as functions of the argument arrays.

  Each network is  Linear → LayerNorm → ReLU → Linear:
      h   = z · w1ᵀ + b1                                   [128,32]
      μ   = (Σ_j h_j) / 32,   σ² = (Σ_j (h_j − μ)²) / (32 − 0)   (the variance guarded by 32 − 0 > 0)
      a   = max( (h − μ) · rsqrt(σ² + ε) · g + β , 0 )
      out = a · w2ᵀ + b2
  with ε the f32 literal of 1e-5. The weight network's output [128,4096] is laid out as [128,64,64]. The reference then
  forms, sample by sample,  out[b] = weight[b] · x[b] + bias[b]  with the bias repeated along the last axis.
-/
import proofs.«100930_j83623013253335_2_alg».proof.Proof.Gen.ReferenceIdeal
import Idealize.ShloMosaic.PureOps

noncomputable section

namespace Cert.ReferenceIdeal.Head

open Cert.ReferenceIdeal Cert.ReferenceIdeal.Gen Idealize.ShloMosaic

variable {F : FTy → Type} [FloatOps F]

/-- The first linear layer: z · w1ᵀ + b1. -/
def lin1 (z : FVec F S128x3 .f32) (w1 : FVec F S32x3 .f32) (b1 : FVec F S32 .f32) : FVec F S128x32 .f32 :=
  addf (Host.dotGeneral dot_S128x3_S3x32_S128x32_1_0_0_1_n_n none z (transpose S3x32 [1, 0] w1 transposes_S32x3_S3x32_1_0))
    (broadcastInDim S128x32 ![0, 1] bcast_S1x32_S128x32_0_1 (broadcastInDim S1x32 ![1] bcast_S32_S1x32_1 b1))

/-- The row mean, kept as a column. -/
def rowMean (h : FVec F S128x32 .f32) : FVec F S128x1 .f32 :=
  Host.divf (broadcastInDim S128x1 ![0] bcast_S128_S128x1_0
      (Host.reduceAdd h (constant S_ .f32 0x00000000#32) reducesTo_S128x32_S128_d1 h_S_))
    (broadcastInDim S128x1 ![] bcast_S_S128x1 (constant S_ .f32 0x42000000#32))

/-- The number of degrees of freedom of the variance: 32 − 0, as a float scalar. -/
def dof : FVec F S_ .f32 := subf (constant S_ .f32 0x42000000#32) (sitofp .f32 (constantI S_ 32 0#32))

/-- The row variance, kept as a column; where 32 − 0 > 0 fails it is the literal the program puts there. -/
def rowVar (h : FVec F S128x32 .f32) : FVec F S128x1 .f32 :=
  select (broadcastInDim S128x1 ![] bcast_S_S128x1 (cmpf .ogt (dof (F := F)) (constant S_ .f32 0x00000000#32)))
    (Host.divf (broadcastInDim S128x1 ![0] bcast_S128_S128x1_0
        (Host.reduceAdd
          (mulf (subf h (broadcastInDim S128x32 ![0, 1] bcast_S128x1_S128x32_0_1 (rowMean h)))
            (subf h (broadcastInDim S128x32 ![0, 1] bcast_S128x1_S128x32_0_1 (rowMean h))))
          (constant S_ .f32 0x00000000#32) reducesTo_S128x32_S128_d1 h_S_))
      (broadcastInDim S128x1 ![] bcast_S_S128x1 (dof (F := F))))
    (broadcastInDim S128x1 ![] bcast_S_S128x1 (constant S_ .f32 0x7FC00000#32))

/-- LayerNorm with gain g and shift β, then the rectifier. -/
def normRect (h : FVec F S128x32 .f32) (g β : FVec F S32 .f32) : FVec F S128x32 .f32 :=
  maximumf
    (addf
      (mulf
        (mulf (subf h (broadcastInDim S128x32 ![0, 1] bcast_S128x1_S128x32_0_1 (rowMean h)))
          (broadcastInDim S128x32 ![0, 1] bcast_S128x1_S128x32_0_1
            (Host.rsqrt (addf (rowVar h) (broadcastInDim S128x1 ![] bcast_S_S128x1 (constant S_ .f32 0x3727C5AC#32))))))
        (broadcastInDim S128x32 ![0, 1] bcast_S1x32_S128x32_0_1 (broadcastInDim S1x32 ![1] bcast_S32_S1x32_1 g)))
      (broadcastInDim S128x32 ![0, 1] bcast_S1x32_S128x32_0_1 (broadcastInDim S1x32 ![1] bcast_S32_S1x32_1 β)))
    (broadcastInDim S128x32 ![] bcast_S_S128x32 (constant S_ .f32 0x00000000#32))

/-- The hidden activations of one network. -/
def hidden (z : FVec F S128x3 .f32) (w1 : FVec F S32x3 .f32) (b1 g β : FVec F S32 .f32) : FVec F S128x32 .f32 :=
  normRect (lin1 z w1 b1) g β

/-- The per-sample weight [128,64,64]. -/
def weight (z : FVec F S128x3 .f32) (w1 : FVec F S32x3 .f32) (b1 g β : FVec F S32 .f32)
    (w2 : FVec F S4096x32 .f32) (b2 : FVec F S4096 .f32) : FVec F S128x64x64 .f32 :=
  fun i => shapeCast S128x64x64
    (addf (Host.dotGeneral dot_S128x32_S32x4096_S128x4096_1_0_0_1_n_n none (hidden z w1 b1 g β)
        (transpose S32x4096 [1, 0] w2 transposes_S4096x32_S32x4096_1_0))
      (broadcastInDim S128x4096 ![0, 1] bcast_S1x4096_S128x4096_0_1 (broadcastInDim S1x4096 ![1] bcast_S4096_S1x4096_1 b2)))
    shapeCasts_S128x4096_S128x64x64 i

/-- The per-sample bias [128,64]. -/
def bias (z : FVec F S128x3 .f32) (w1 : FVec F S32x3 .f32) (b1 g β : FVec F S32 .f32)
    (w2 : FVec F S64x32 .f32) (b2 : FVec F S64 .f32) : FVec F S128x64 .f32 :=
  addf (Host.dotGeneral dot_S128x32_S32x64_S128x64_1_0_0_1_n_n none (hidden z w1 b1 g β)
      (transpose S32x64 [1, 0] w2 transposes_S64x32_S32x64_1_0))
    (broadcastInDim S128x64 ![0, 1] bcast_S1x64_S128x64_0_1 (broadcastInDim S1x64 ![1] bcast_S64_S1x64_1 b2))

/-- The reference's last four operations: the per-sample product of weight and input, plus the bias repeated along
    the last axis. -/
def conv (W : FVec F S128x64x64 .f32) (B : FVec F S128x64 .f32) (X : FVec F S128x64x4096 .f32) : FVec F S128x64x4096 .f32 :=
  addf (Host.dotGeneral dot_S128x64x64_S128x64x4096_S128x64x4096_2_1_1_2_0_0 none W X)
    (broadcastInDim S128x64x4096 ![0, 1, 2] bcast_S128x64x1_S128x64x4096_0_1_2
      (broadcastInDim S128x64x1 ![0, 1] bcast_S128x64_S128x64x1_0_1 B))

end Cert.ReferenceIdeal.Head

end
-- ==== Proof.LibSetScatter.lean ====
/-
  A scatter whose body returns the update, read at one operand index.

  The scatter is a left fold over the update indices in row-major order; each update index j
  either lands at some operand index (its result index) and overwrites the value there with
  the update's element at j, or is dropped. Read at a fixed operand index i, the fold only
  changes at the steps whose result index is i. Hence:
    * if exactly one update index j₀ lands at i, the value at i is the update's element at j₀;
    * if no update index lands at i, the value at i is the operand's.
  Both follow from a lemma on List.foldl, proved by induction on the list with the accumulator
  generalized: the accumulator at i already holds the update's element at j₀, or j₀ is still
  ahead in the list.
-/
import Idealize.ShloMosaic.PureOps.Ideal
import Idealize.ShloMosaic.Lib.ValueIdx

noncomputable section

namespace Idealize.ShloMosaic.SetScatter

open Idealize.ShloMosaic

/-- A left fold of a step that leaves position `i` alone whenever the step's target is not `i`:
    if no element of the list targets `i`, the fold's value at `i` is the initial one. -/
theorem foldl_at_of_none {β ι γ : Type} (g : (ι → γ) → β → (ι → γ)) (hit : β → Option ι) (i : ι)
    (hother : ∀ r n, hit n ≠ some i → g r n i = r i) :
    ∀ (l : List β) (r : ι → γ), (∀ n ∈ l, hit n ≠ some i) → l.foldl g r i = r i := by
  intro l
  induction l with
  | nil => intro r _; rfl
  | cons n t ih =>
    intro r h
    rw [List.foldl_cons, ih (g r n) (fun m hm => h m (List.mem_cons_of_mem _ hm))]
    exact hother r n (h n (List.mem_cons.2 (Or.inl rfl)))

/-- A left fold of a step that writes `v n` at position `i` when the step's target is `i` and
    leaves `i` alone otherwise: if `n₀` is the only element of the list that targets `i`, and the
    accumulator at `i` already holds `v n₀` or `n₀` is still in the list, the fold's value at `i`
    is `v n₀`. -/
theorem foldl_at_of_unique {β ι γ : Type} (g : (ι → γ) → β → (ι → γ)) (hit : β → Option ι) (v : β → γ)
    (i : ι) (n₀ : β)
    (hother : ∀ r n, hit n ≠ some i → g r n i = r i)
    (hhit : ∀ r n, hit n = some i → g r n i = v n)
    (hn₀ : hit n₀ = some i) :
    ∀ (l : List β) (r : ι → γ), (∀ n ∈ l, hit n = some i → n = n₀) → (r i = v n₀ ∨ n₀ ∈ l) →
      l.foldl g r i = v n₀ := by
  intro l
  induction l with
  | nil =>
    intro r _ h
    rcases h with h | h
    · exact h
    · exact absurd h (by simp)
  | cons n t ih =>
    intro r huniq h
    rw [List.foldl_cons]
    apply ih (g r n) (fun m hm => huniq m (List.mem_cons_of_mem _ hm))
    by_cases hn : hit n = some i
    · left
      have hnn : n = n₀ := huniq n (List.mem_cons.2 (Or.inl rfl)) hn
      rw [hhit r n hn, hnn]
    · rcases h with h | h
      · left; rw [hother r n hn]; exact h
      · rcases List.mem_cons.1 h with h | h
        · exact absurd (h ▸ hn₀) hn
        · right; exact h

/-- A scatter whose body returns the update, read at an operand index `i` that exactly one
    update index `j₀` lands at: the value is the update's element at `j₀`. -/
theorem scatter_set_of_unique {α : Type} {s si u : Shape} {w : Nat} (d : ScatterDims s si u) (x : s.Idx → α)
    (idx : IVec si w) (upd : u.Idx → α) (i : s.Idx) (j₀ : u.Idx)
    (hj₀ : d.resultIdx? j₀ idx = some i) (huniq : ∀ j, d.resultIdx? j idx = some i → j = j₀) :
    Host.scatter d (fun _ b => b) x idx upd i = upd j₀ := by
  unfold Host.scatter
  refine (foldl_at_of_unique (hit := fun n => d.resultIdx? (u.rowMajor.symm n) idx)
    (v := fun n => upd (u.rowMajor.symm n)) _ i (u.rowMajor j₀) ?_ ?_ ?_ (List.finRange u.numel) x ?_ ?_).trans ?_
  · intro r n hn
    dsimp only at hn ⊢
    generalize d.resultIdx? (u.rowMajor.symm n) idx = q at hn ⊢
    cases q with
    | none => rfl
    | some i₁ =>
      have hne : i ≠ i₁ := fun h => hn (by rw [h])
      exact if_neg hne
  · intro r n hn
    dsimp only at hn ⊢
    generalize d.resultIdx? (u.rowMajor.symm n) idx = q at hn ⊢
    cases q with
    | none => cases hn
    | some i₁ =>
      have he : i = i₁ := (Option.some.inj hn).symm
      exact if_pos he
  · show d.resultIdx? (u.rowMajor.symm (u.rowMajor j₀)) idx = some i
    rw [Equiv.symm_apply_apply]; exact hj₀
  · intro n _ hn
    have hj := huniq _ hn
    rw [← hj, Equiv.apply_symm_apply]
  · right; exact List.mem_finRange _
  · show upd (u.rowMajor.symm (u.rowMajor j₀)) = upd j₀
    rw [Equiv.symm_apply_apply]

/-- A scatter whose body returns the update, read at an operand index `i` that no update
    index lands at: the value is the operand's. -/
theorem scatter_set_of_none {α : Type} {s si u : Shape} {w : Nat} (d : ScatterDims s si u) (x : s.Idx → α)
    (idx : IVec si w) (upd : u.Idx → α) (i : s.Idx)
    (hnone : ∀ j, d.resultIdx? j idx ≠ some i) : Host.scatter d (fun _ b => b) x idx upd i = x i := by
  unfold Host.scatter
  refine foldl_at_of_none (hit := fun n => d.resultIdx? (u.rowMajor.symm n) idx) _ i ?_
    (List.finRange u.numel) x ?_
  · intro r n hn
    dsimp only at hn ⊢
    generalize d.resultIdx? (u.rowMajor.symm n) idx = q at hn ⊢
    cases q with
    | none => rfl
    | some i₁ =>
      have hne : i ≠ i₁ := fun h => hn (by rw [h])
      exact if_neg hne
  · intro n _
    exact hnone _

end Idealize.ShloMosaic.SetScatter
-- ==== Proof.BlockDiag.lean ====
/-
  A block-diagonal embedding written as a scatter.

  The operand has shape [32,4,4,64,64], the scatter indices [4,2], the updates [32,4,64,64]. The
  update's axes 0, 2, 3 are window axes going to the operand's axes 0, 3, 4; the operand's axes
  1 and 2 are inserted and receive the two components of the scatter index read at the update's
  axis 1. So update element (g, a, o, i) lands at operand element (g, idx[a,0], idx[a,1], o, i).
  When idx[a,c] = a for both components, it lands at (g, a, a, o, i): the operand's diagonal
  blocks (a = a') are overwritten by the update, every off-diagonal block keeps the operand's
  element.
-/
import proofs.«100930_j83623013253335_2_alg».proof.Proof.LibSetScatter

noncomputable section

namespace Cert.BlockDiag

open Idealize.ShloMosaic Idealize.ShloMosaic.ValueIdx

/-- The operand's shape. -/
abbrev SOp : Shape := ⟨5, ![32, 4, 4, 64, 64]⟩
/-- The scatter indices' shape. -/
abbrev SIx : Shape := ⟨2, ![4, 2]⟩
/-- The updates' shape. -/
abbrev SUp : Shape := ⟨4, ![32, 4, 64, 64]⟩

/-- The dimension numbers: window axes 0, 2, 3 of the update; axes 1, 2 of the operand inserted
    and addressed by the two components of the index vector (axis 1 of the scatter indices). -/
def bdDims (wf : ScatterDims.WF SOp SIx SUp [0, 2, 3] [1, 2] [1, 2] 1) : ScatterDims SOp SIx SUp :=
  { updateWindowDims := [0, 2, 3], insertedWindowDims := [1, 2], scatterDimsToOperandDims := [1, 2],
    indexVectorDim := 1, wf := wf }

variable (wf : ScatterDims.WF SOp SIx SUp [0, 2, 3] [1, 2] [1, 2] 1) {w : Nat}

/-- Operand axis 0 is not addressed by the index vector: its window starts at 0. -/
theorem bdDims_start0 (j : SUp.Idx) (idx : IVec SIx w) : (bdDims wf).start j idx 0 = 0 := by
  unfold ScatterDims.start
  rw [dif_neg (fun h => by simp [bdDims] at h)]

/-- Operand axis 1 starts at component 0 of the index vector at the update's axis-1 coordinate. -/
theorem bdDims_start1 (g : Fin 32) (a : Fin 4) (o i : Fin 64) (idx : IVec SIx w) :
    (bdDims wf).start (ix4 g a o i) idx 1 = (idx (ix2 a 0)).toInt := by
  unfold ScatterDims.start
  rw [dif_pos (show (1 : Fin 5) ∈ (bdDims wf).scatterDimsToOperandDims from by simp [bdDims])]
  have hsi : (bdDims wf).siIdx (ix4 g a o i) ⟨List.idxOf (1 : Fin 5) (bdDims wf).scatterDimsToOperandDims,
      List.idxOf_lt_length_iff.2 (by simp [bdDims])⟩ = ix2 a 0 := by
    funext b; refine Fin.ext ?_
    match b with
    | ⟨0, _⟩ => rfl
    | ⟨1, _⟩ => rfl
  rw [hsi]

/-- Operand axis 2 starts at component 1 of the index vector at the update's axis-1 coordinate. -/
theorem bdDims_start2 (g : Fin 32) (a : Fin 4) (o i : Fin 64) (idx : IVec SIx w) :
    (bdDims wf).start (ix4 g a o i) idx 2 = (idx (ix2 a 1)).toInt := by
  unfold ScatterDims.start
  rw [dif_pos (show (2 : Fin 5) ∈ (bdDims wf).scatterDimsToOperandDims from by simp [bdDims])]
  have hsi : (bdDims wf).siIdx (ix4 g a o i) ⟨List.idxOf (2 : Fin 5) (bdDims wf).scatterDimsToOperandDims,
      List.idxOf_lt_length_iff.2 (by simp [bdDims])⟩ = ix2 a 1 := by
    funext b; refine Fin.ext ?_
    match b with
    | ⟨0, _⟩ => rfl
    | ⟨1, _⟩ => rfl
  rw [hsi]

/-- Operand axis 3 is not addressed by the index vector: its window starts at 0. -/
theorem bdDims_start3 (j : SUp.Idx) (idx : IVec SIx w) : (bdDims wf).start j idx 3 = 0 := by
  unfold ScatterDims.start
  rw [dif_neg (fun h => by simp [bdDims] at h)]

/-- Operand axis 4 is not addressed by the index vector: its window starts at 0. -/
theorem bdDims_start4 (j : SUp.Idx) (idx : IVec SIx w) : (bdDims wf).start j idx 4 = 0 := by
  unfold ScatterDims.start
  rw [dif_neg (fun h => by simp [bdDims] at h)]

/-- Operand axis 0 is a kept axis, the first: its window coordinate is the update's axis-0 coordinate. -/
theorem bdDims_window0 (j : SUp.Idx) : (bdDims wf).window j 0 = (j 0).val := by
  unfold ScatterDims.window
  rw [dif_pos (show (0 : Fin 5) ∈ (bdDims wf).sKept from (by decide : (0 : Fin 5) ∈ SOp.kept [1, 2]))]
  rfl

/-- Operand axis 1 is inserted: window coordinate 0. -/
theorem bdDims_window1 (j : SUp.Idx) : (bdDims wf).window j 1 = 0 := by
  unfold ScatterDims.window
  rw [dif_neg (show ¬ (1 : Fin 5) ∈ (bdDims wf).sKept from (by decide : ¬ (1 : Fin 5) ∈ SOp.kept [1, 2]))]

/-- Operand axis 2 is inserted: window coordinate 0. -/
theorem bdDims_window2 (j : SUp.Idx) : (bdDims wf).window j 2 = 0 := by
  unfold ScatterDims.window
  rw [dif_neg (show ¬ (2 : Fin 5) ∈ (bdDims wf).sKept from (by decide : ¬ (2 : Fin 5) ∈ SOp.kept [1, 2]))]

/-- Operand axis 3 is the second kept axis: its window coordinate is the update's axis-2 coordinate. -/
theorem bdDims_window3 (j : SUp.Idx) : (bdDims wf).window j 3 = (j 2).val := by
  unfold ScatterDims.window
  rw [dif_pos (show (3 : Fin 5) ∈ (bdDims wf).sKept from (by decide : (3 : Fin 5) ∈ SOp.kept [1, 2]))]
  rfl

/-- Operand axis 4 is the third kept axis: its window coordinate is the update's axis-3 coordinate. -/
theorem bdDims_window4 (j : SUp.Idx) : (bdDims wf).window j 4 = (j 3).val := by
  unfold ScatterDims.window
  rw [dif_pos (show (4 : Fin 5) ∈ (bdDims wf).sKept from (by decide : (4 : Fin 5) ∈ SOp.kept [1, 2]))]
  rfl

/-- Where update element `(g, a, o, i)` lands when every index vector reads `(a, a)`: at the
    operand's element `(g, a, a, o, i)`. -/
theorem bdDims_resultIdx? (idx : IVec SIx w)
    (hidx : ∀ (a : Fin 4) (c : Fin 2), (idx (ix2 a c)).toInt = (a.val : Int))
    (g : Fin 32) (a : Fin 4) (o i : Fin 64) :
    (bdDims wf).resultIdx? (ix4 g a o i) idx = some (ix5 g a a o i) := by
  unfold ScatterDims.resultIdx?
  have hg := g.isLt
  have ha := a.isLt
  have ho := o.isLt
  have hi := i.isLt
  have hc : ∀ ax, 0 ≤ (bdDims wf).start (ix4 g a o i) idx ax + (bdDims wf).window (ix4 g a o i) ax ∧
      (bdDims wf).start (ix4 g a o i) idx ax + (bdDims wf).window (ix4 g a o i) ax < SOp.size ax := by
    intro ax
    match ax with
    | ⟨0, _⟩ =>
      show 0 ≤ (bdDims wf).start (ix4 g a o i) idx 0 + (bdDims wf).window (ix4 g a o i) 0 ∧
        (bdDims wf).start (ix4 g a o i) idx 0 + (bdDims wf).window (ix4 g a o i) 0 < (32 : Int)
      rw [bdDims_start0, bdDims_window0]
      show 0 ≤ (0 : Int) + (g.val : Int) ∧ (0 : Int) + (g.val : Int) < 32
      constructor <;> omega
    | ⟨1, _⟩ =>
      show 0 ≤ (bdDims wf).start (ix4 g a o i) idx 1 + (bdDims wf).window (ix4 g a o i) 1 ∧
        (bdDims wf).start (ix4 g a o i) idx 1 + (bdDims wf).window (ix4 g a o i) 1 < (4 : Int)
      rw [bdDims_start1, bdDims_window1, hidx]
      constructor <;> omega
    | ⟨2, _⟩ =>
      show 0 ≤ (bdDims wf).start (ix4 g a o i) idx 2 + (bdDims wf).window (ix4 g a o i) 2 ∧
        (bdDims wf).start (ix4 g a o i) idx 2 + (bdDims wf).window (ix4 g a o i) 2 < (4 : Int)
      rw [bdDims_start2, bdDims_window2, hidx]
      constructor <;> omega
    | ⟨3, _⟩ =>
      show 0 ≤ (bdDims wf).start (ix4 g a o i) idx 3 + (bdDims wf).window (ix4 g a o i) 3 ∧
        (bdDims wf).start (ix4 g a o i) idx 3 + (bdDims wf).window (ix4 g a o i) 3 < (64 : Int)
      rw [bdDims_start3, bdDims_window3]
      show 0 ≤ (0 : Int) + (o.val : Int) ∧ (0 : Int) + (o.val : Int) < 64
      constructor <;> omega
    | ⟨4, _⟩ =>
      show 0 ≤ (bdDims wf).start (ix4 g a o i) idx 4 + (bdDims wf).window (ix4 g a o i) 4 ∧
        (bdDims wf).start (ix4 g a o i) idx 4 + (bdDims wf).window (ix4 g a o i) 4 < (64 : Int)
      rw [bdDims_start4, bdDims_window4]
      show 0 ≤ (0 : Int) + (i.val : Int) ∧ (0 : Int) + (i.val : Int) < 64
      constructor <;> omega
  rw [dif_pos hc]
  congr 1
  funext ax
  refine Fin.ext ?_
  match ax with
  | ⟨0, _⟩ =>
    show ((bdDims wf).start (ix4 g a o i) idx 0 + (bdDims wf).window (ix4 g a o i) 0).toNat = g.val
    rw [bdDims_start0, bdDims_window0]
    show ((0 : Int) + (g.val : Int)).toNat = g.val
    omega
  | ⟨1, _⟩ =>
    show ((bdDims wf).start (ix4 g a o i) idx 1 + (bdDims wf).window (ix4 g a o i) 1).toNat = a.val
    rw [bdDims_start1, bdDims_window1, hidx]
    omega
  | ⟨2, _⟩ =>
    show ((bdDims wf).start (ix4 g a o i) idx 2 + (bdDims wf).window (ix4 g a o i) 2).toNat = a.val
    rw [bdDims_start2, bdDims_window2, hidx]
    omega
  | ⟨3, _⟩ =>
    show ((bdDims wf).start (ix4 g a o i) idx 3 + (bdDims wf).window (ix4 g a o i) 3).toNat = o.val
    rw [bdDims_start3, bdDims_window3]
    show ((0 : Int) + (o.val : Int)).toNat = o.val
    omega
  | ⟨4, _⟩ =>
    show ((bdDims wf).start (ix4 g a o i) idx 4 + (bdDims wf).window (ix4 g a o i) 4).toNat = i.val
    rw [bdDims_start4, bdDims_window4]
    show ((0 : Int) + (i.val : Int)).toNat = i.val
    omega

/-- THE SCATTER READ AT `(g, a, a', o, i)`, when every index vector reads `(a, a)`: on a diagonal
    block (`a = a'`) exactly one update element, `(g, a, o, i)`, lands there and the value is
    the update's; off the diagonal no update element lands there and the value is the operand's. -/
theorem blockDiag_apply {α : Type} (wf : ScatterDims.WF SOp SIx SUp [0, 2, 3] [1, 2] [1, 2] 1) (x : SOp.Idx → α)
    (idx : IVec SIx 32) (upd : SUp.Idx → α)
    (hidx : ∀ (a : Fin 4) (c : Fin 2), (idx (ValueIdx.ix2 a c)).toInt = (a.val : Int))
    (g : Fin 32) (a a' : Fin 4) (o i : Fin 64) :
    Host.scatter (bdDims wf) (fun _ b => b) x idx upd (ValueIdx.ix5 g a a' o i)
      = if a = a' then upd (ValueIdx.ix4 g a o i) else x (ValueIdx.ix5 g a a' o i) := by
  by_cases h : a = a'
  · subst h
    rw [if_pos rfl]
    refine SetScatter.scatter_set_of_unique (bdDims wf) x idx upd _ (ix4 g a o i)
      (bdDims_resultIdx? wf idx hidx g a o i) ?_
    intro j hj
    obtain ⟨g', b, o', i', rfl⟩ : ∃ (g' : Fin 32) (b : Fin 4) (o' i' : Fin 64), j = ix4 g' b o' i' :=
      ⟨j 0, j 1, j 2, j 3, eq_ix4 j⟩
    rw [bdDims_resultIdx? wf idx hidx] at hj
    have e := Option.some.inj hj
    have h0 : g' = g := congrFun e 0
    have h1 : b = a := congrFun e 1
    have h3 : o' = o := congrFun e 3
    have h4 : i' = i := congrFun e 4
    rw [h0, h1, h3, h4]
  · rw [if_neg h]
    refine SetScatter.scatter_set_of_none (bdDims wf) x idx upd _ ?_
    intro j hj
    obtain ⟨g', b, o', i', rfl⟩ : ∃ (g' : Fin 32) (b : Fin 4) (o' i' : Fin 64), j = ix4 g' b o' i' :=
      ⟨j 0, j 1, j 2, j 3, eq_ix4 j⟩
    rw [bdDims_resultIdx? wf idx hidx] at hj
    have e := Option.some.inj hj
    have h1 : b = a := congrFun e 1
    have h2 : b = a' := congrFun e 2
    exact h (h1.symm.trans h2)

end Cert.BlockDiag
-- ==== Proof.KerHost.lean ====
/-
  The kernel program's host operations before its region, read as values.

  Before the region the program forms, from the per-sample weight W [128,64,64], bias B [128,64] and input X
  [128,64,4096], three packed arrays that group four consecutive samples:
    * the input and the bias are re-laid out row-major: [128,64,4096] as [32,256,4096], [128,64] as [32,256,1];
    * the weight becomes block diagonal: W is re-laid out as [32,4,64,64], written into the diagonal blocks
      (a, a) of an all-zero [32,4,4,64,64] array, whose two middle axes are then swapped and which is finally
      re-laid out as [32,256,256].
  Read at an entry: row 64·a + o of group g is row o of sample 4·g + a; the packed weight at
  (g, 64·a + o, 64·a' + i) is W (4·g + a, o, i) when a = a' and 0 otherwise.
-/
import proofs.«100930_j83623013253335_2_alg».proof.Proof.Gen.KernelIdeal.Frame
import proofs.«100930_j83623013253335_2_alg».proof.Proof.Head
import proofs.«100930_j83623013253335_2_alg».proof.Proof.BlockDiag
import Idealize.ShloMosaic.Lib.Pipeline.Value
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- One column of the index table: the counter 0, 1, 2, 3 with 4 added where it is negative (nowhere). -/
def idxCol : IVec S4 32 :=
  select (cmpi .slt (iotaInDim S4 32 0) (broadcastInDim S4 ![] bcast_S_S4 (constantI S_ 32 0#32)))
    (addi (iotaInDim S4 32 0) (broadcastInDim S4 ![] bcast_S_S4 (constantI S_ 32 4#32)))
    (iotaInDim S4 32 0)

/-- The index table [4,2]: both columns are the counter. -/
def idxTable : IVec S4x2 32 :=
  concatenate S4x2 1 [⟨S4x1, broadcastInDim S4x1 ![0] bcast_S4_S4x1_0 idxCol⟩,
    ⟨S4x1, broadcastInDim S4x1 ![0] bcast_S4_S4x1_0 idxCol⟩] concatenates_S4x1_S4x1_S4x2_d1

/-- The packed weight: W as [32,4,64,64] written into the diagonal blocks of a zero [32,4,4,64,64] array, the
    two middle axes swapped, re-laid out as [32,256,256]. -/
def packW (W : FVec Ideal S128x64x64 .f32) : FVec Ideal S32x256x256 .f32 :=
  fun i => shapeCast S32x256x256
    (transpose S32x4x64x4x64 [0, 1, 3, 2, 4]
      (Host.scatter scatter_S32x4x4x64x64_S4x2_S32x4x64x64_023_12_12_1 (fun _ b => b)
        (broadcastInDim S32x4x4x64x64 ![] bcast_S_S32x4x4x64x64 (constant (F := Ideal) S_ .f32 0x00000000#32))
        idxTable
        (fun i => shapeCast S32x4x64x64 W shapeCasts_S128x64x64_S32x4x64x64 i))
      transposes_S32x4x4x64x64_S32x4x64x4x64_0_1_3_2_4)
    shapeCasts_S32x4x64x4x64_S32x256x256 i

/-- The packed bias: B re-laid out as [32,256,1]. -/
def packB (B : FVec Ideal S128x64 .f32) : FVec Ideal S32x256x1 .f32 :=
  fun i => shapeCast S32x256x1 B shapeCasts_S128x64_S32x256x1 i

/-- The packed input: X re-laid out as [32,256,4096]. -/
def packX (X : FVec Ideal S128x64x4096 .f32) : FVec Ideal S32x256x4096 .f32 :=
  fun i => shapeCast S32x256x4096 X shapeCasts_S128x64x4096_S32x256x4096 i

/-- When the region is entered the first window's array holds the packed weight of the shared weight network. -/
theorem V_weight (c : Dev nD) : V m c main_v77 = packW (Cert.ReferenceIdeal.Head.weight (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- When the region is entered the second window's array holds the packed bias of the shared bias network. -/
theorem V_bias (c : Dev nD) : V m c main_v78 = packB (Cert.ReferenceIdeal.Head.bias (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- When the region is entered the third window's array holds the packed input. -/
theorem V_input (c : Dev nD) : V m c main_v79 = packX (m ((c : Thread nD τ).loc main_arg0)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

section Entries

variable (g : Fin 32) (a a' : Fin 4) (o i : Fin 64) (t : Fin 4096)

/-- The packed input at row 64·a + o of group g is the input at row o of sample 4·g + a. -/
theorem packX_apply (X : FVec Ideal S128x64x4096 .f32) :
    packX X (ix3 g (⟨64 * a.val + o.val, by omega⟩ : Fin 256) t) = X (ix3 (⟨4 * g.val + a.val, by omega⟩ : Fin 128) o t) := by
  unfold packX
  refine shapeCast_apply _ _ _ _ ?_
  rw [Shape.rowMajor_val_three, Shape.rowMajor_val_three]
  show ((4 * g.val + a.val) * 64 + o.val) * 4096 + t.val = (g.val * 256 + (64 * a.val + o.val)) * 4096 + t.val
  omega

/-- The packed bias at row 64·a + o of group g is the bias at entry o of sample 4·g + a. -/
theorem packB_apply (B : FVec Ideal S128x64 .f32) :
    packB B (ix3 g (⟨64 * a.val + o.val, by omega⟩ : Fin 256) (0 : Fin 1)) = B (ix2 (⟨4 * g.val + a.val, by omega⟩ : Fin 128) o) := by
  unfold packB
  refine shapeCast_apply _ _ _ _ ?_
  rw [Shape.rowMajor_val_two, Shape.rowMajor_val_three]
  show (4 * g.val + a.val) * 64 + o.val = (g.val * 256 + (64 * a.val + o.val)) * 1 + 0
  omega

/-- Every row of the index table reads (a, a). -/
theorem idxTable_toInt (b : Fin 4) (c : Fin 2) : (idxTable (ix2 b c)).toInt = (b.val : Int) := by
  fin_cases b <;> fin_cases c <;> decide

/-- The update of the scatter: W re-laid out as [32,4,64,64]; entry (g, a, o, i) is W (4·g + a, o, i). -/
theorem updW_apply (W : FVec Ideal S128x64x64 .f32) (g : Fin 32) (a : Fin 4) (o i : Fin 64) :
    shapeCast S32x4x64x64 W shapeCasts_S128x64x64_S32x4x64x64 (ix4 g a o i)
      = W (ix3 (⟨4 * g.val + a.val, by omega⟩ : Fin 128) o i) := by
  refine shapeCast_apply _ _ _ _ ?_
  rw [Shape.rowMajor_val_three, Shape.rowMajor_val_four]
  show ((4 * g.val + a.val) * 64 + o.val) * 64 + i.val = ((g.val * 4 + a.val) * 64 + o.val) * 64 + i.val
  omega

/-- The operand of the scatter is zero everywhere. -/
theorem zeros_apply (j : S32x4x4x64x64.Idx) :
    broadcastInDim S32x4x4x64x64 ![] bcast_S_S32x4x4x64x64 (constant (F := Ideal) S_ .f32 0x00000000#32) j = 0 := by
  rw [broadcastInDim_apply _ _ _ j ix0 (fun b => b.elim0)]
  exact Ideal.ofBits_zero_f32

/-- The packed weight at (g, 64·a + o, 64·a' + i): the weight's entry (o, i) of sample 4·g + a on the
    diagonal blocks, zero off them. -/
theorem packW_apply (W : FVec Ideal S128x64x64 .f32) :
    packW W (ix3 g (⟨64 * a.val + o.val, by omega⟩ : Fin 256) (⟨64 * a'.val + i.val, by omega⟩ : Fin 256))
      = if a = a' then W (ix3 (⟨4 * g.val + a.val, by omega⟩ : Fin 128) o i) else 0 := by
  unfold packW
  rw [shapeCast_apply _ _ _ (ix5 g a o a' i : S32x4x64x4x64.Idx) (by
    rw [Shape.rowMajor_val_five, Shape.rowMajor_val_three]
    show (((g.val * 4 + a.val) * 64 + o.val) * 4 + a'.val) * 64 + i.val
      = (g.val * 256 + (64 * a.val + o.val)) * 256 + (64 * a'.val + i.val)
    omega)]
  rw [transpose_apply _ _ _ _ (ix5 g a a' o i : S32x4x4x64x64.Idx) (by
    intro b
    match b with
    | ⟨0, _⟩ => rfl
    | ⟨1, _⟩ => rfl
    | ⟨2, _⟩ => rfl
    | ⟨3, _⟩ => rfl
    | ⟨4, _⟩ => rfl)]
  have hbd := Cert.BlockDiag.blockDiag_apply scatter_S32x4x4x64x64_S4x2_S32x4x64x64_023_12_12_1_wf
    (broadcastInDim S32x4x4x64x64 ![] bcast_S_S32x4x4x64x64 (constant (F := Ideal) S_ .f32 0x00000000#32))
    idxTable (fun i => shapeCast S32x4x64x64 W shapeCasts_S128x64x64_S32x4x64x64 i) idxTable_toInt g a a' o i
  refine Eq.trans hbd ?_
  by_cases h : a = a'
  · rw [if_pos h, if_pos h]
    exact updW_apply W g a o i
  · rw [if_neg h, if_neg h]
    exact zeros_apply _

end Entries

end Cert.KernelIdeal.HostPrefix
-- ==== Proof.RefRun.lean ====
/-
  The reference program's @main as one straight line. @main is two windows run in order; four of
  its statements are calls (the rows' variance twice, the positive part twice; the variance itself
  calls the guarded choice), and a call executes the callee's body on the operands over that call's
  own buffers. Written out, @main is therefore a single list of 119 host operations: its own 67, and
  at each call site the callee's operations over the call's buffer record. `main_eq` states that
  @main is the sequence of that list (both sides are one chain of steps once sequencing is
  reassociated), and `run_main` that every weakly fair execution of @main terminates with each
  buffer holding the fold of the list's results over the launch contents.
-/
import proofs.«100930_j83623013253335_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 119 operations, in program order, each call replaced by its callee's operations over the
    call's buffers. -/
abbrev ops : List (HloOp τ sig (Elt F)) :=
  [ unary main_arg2 main_v0 ((transpose S3x32 [1, 0] · transposes_S32x3_S3x32_1_0) : (⟨S32x3, .f32⟩ : BufTy).Contents (Elt F) → (⟨S3x32, .f32⟩ : BufTy).Contents (Elt F)),
    binary main_arg1 main_v0 main_v1 ((fun l r => Host.dotGeneral dot_S128x3_S3x32_S128x32_1_0_0_1_n_n none l r) : (⟨S128x3, .f32⟩ : BufTy).Contents (Elt F) → (⟨S3x32, .f32⟩ : BufTy).Contents (Elt F) → (⟨S128x32, .f32⟩ : BufTy).Contents (Elt F)),
    unary main_arg3 main_v2 (broadcastInDim S1x32 ![1] bcast_S32_S1x32_1 : (⟨S32, .f32⟩ : BufTy).Contents (Elt F) → (⟨S1x32, .f32⟩ : BufTy).Contents (Elt F)),
    unary main_v2 main_v3 (broadcastInDim S128x32 ![0, 1] bcast_S1x32_S128x32_0_1 : (⟨S1x32, .f32⟩ : BufTy).Contents (Elt F) → (⟨S128x32, .f32⟩ : BufTy).Contents (Elt F)),
    binary main_v1 main_v3 main_v4 (addf : (⟨S128x32, .f32⟩ : BufTy).Contents (Elt F) → (⟨S128x32, .f32⟩ : BufTy).Contents (Elt F) → (⟨S128x32, .f32⟩ : BufTy).Contents (Elt F)),
    nullary main_cst (constant S_ .f32 0x00000000#32),
    binary main_v4 main_cst main_v5 ((fun x v => Host.reduceAdd x v reducesTo_S128x32_S128_d1 h_S_) : (⟨S128x32, .f32⟩ : BufTy).Contents (Elt F) → (⟨S_, .f32⟩ : BufTy).Contents (Elt F) → (⟨S128, .f32⟩ : BufTy).Contents (Elt F)),
    unary main_v5 main_v6 (broadcastInDim S128x1 ![0] bcast_S128_S128x1_0 : (⟨S128, .f32⟩ : BufTy).Contents (Elt F) → (⟨S128x1, .f32⟩ : BufTy).Contents (Elt F)),
    nullary main_cst_0 (constant S_ .f32 0x42000000#32),
    unary main_cst_0 main_v7 (broadcastInDim S128x1 ![] bcast_S_S128x1 : (⟨S_, .f32⟩ : BufTy).Contents (Elt F) → (⟨S128x1, .f32⟩ : BufTy).Contents (Elt F)),
    binary main_v6 main_v7 main_v8 (Host.divf : (⟨S128x1, .f32⟩ : BufTy).Contents (Elt F) → (⟨S128x1, .f32⟩ : BufTy).Contents (Elt F) → (⟨S128x1, .f32⟩ : BufTy).Contents (Elt F)),
    nullary main_c (constantI S_ 32 0#32),
    -- the rows' variance (the callee @_var), over the buffers of main_call0
    TRef.nullary main_call0.cst (constant S_ .f32 0x00000000#32),
    TRef.binary (.of main_v4 : TRef sig ⟨S128x32, .f32⟩) main_call0.cst main_call0.v0 (fun x v => Host.reduceAdd x v reducesTo_S128x32_S128_d1 h_S_),
    TRef.unary main_call0.v0 main_call0.v1 (broadcastInDim S128x1 ![0] bcast_S128_S128x1_0),
    TRef.nullary main_call0.cst_0 (constant S_ .f32 0x42000000#32),
    TRef.unary main_call0.cst_0 main_call0.v2 (broadcastInDim S128x1 ![] bcast_S_S128x1),
    TRef.binary main_call0.v1 main_call0.v2 main_call0.v3 Host.divf,
    TRef.unary main_call0.v3 main_call0.v4 (broadcastInDim S128x32 ![0, 1] bcast_S128x1_S128x32_0_1),
    TRef.binary (.of main_v4 : TRef sig ⟨S128x32, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x42000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S128x32_S128_d1 h_S_),
    TRef.unary main_call0.v9 main_call0.v10 (broadcastInDim S128x1 ![0] bcast_S128_S128x1_0),
    TRef.unary main_call0.v8 main_call0.v11 (broadcastInDim S128x1 ![] bcast_S_S128x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    -- the guarded choice (the callee @_where), over the buffers of main_call0.call0
    TRef.unary main_call0.cst_4 main_call0.call0.v0 id,
    TRef.unary main_call0.call0.v0 main_call0.call0.v1 (broadcastInDim S128x1 ![] bcast_S_S128x1),
    TRef.ternary main_call0.v13 main_call0.v12 main_call0.call0.v1 main_call0.call0.v2 (fun p a b => select (broadcastInDim S128x1 ![] bcast_S_S128x1 p) a b),
    unary main_v8 main_v10 (broadcastInDim S128x32 ![0, 1] bcast_S128x1_S128x32_0_1 : (⟨S128x1, .f32⟩ : BufTy).Contents (Elt F) → (⟨S128x32, .f32⟩ : BufTy).Contents (Elt F)),
    binary main_v4 main_v10 main_v11 (subf : (⟨S128x32, .f32⟩ : BufTy).Contents (Elt F) → (⟨S128x32, .f32⟩ : BufTy).Contents (Elt F) → (⟨S128x32, .f32⟩ : BufTy).Contents (Elt F)),
    nullary main_cst_1 (constant S_ .f32 0x3727C5AC#32),
    unary main_cst_1 main_v12 (broadcastInDim S128x1 ![] bcast_S_S128x1 : (⟨S_, .f32⟩ : BufTy).Contents (Elt F) → (⟨S128x1, .f32⟩ : BufTy).Contents (Elt F)),
    binary main_v9 main_v12 main_v13 (addf : (⟨S128x1, .f32⟩ : BufTy).Contents (Elt F) → (⟨S128x1, .f32⟩ : BufTy).Contents (Elt F) → (⟨S128x1, .f32⟩ : BufTy).Contents (Elt F)),
    unary main_v13 main_v14 (Host.rsqrt : (⟨S128x1, .f32⟩ : BufTy).Contents (Elt F) → (⟨S128x1, .f32⟩ : BufTy).Contents (Elt F)),
    unary main_v14 main_v15 (broadcastInDim S128x32 ![0, 1] bcast_S128x1_S128x32_0_1 : (⟨S128x1, .f32⟩ : BufTy).Contents (Elt F) → (⟨S128x32, .f32⟩ : BufTy).Contents (Elt F)),
    binary main_v11 main_v15 main_v16 (mulf : (⟨S128x32, .f32⟩ : BufTy).Contents (Elt F) → (⟨S128x32, .f32⟩ : BufTy).Contents (Elt F) → (⟨S128x32, .f32⟩ : BufTy).Contents (Elt F)),
    unary main_arg4 main_v17 (broadcastInDim S1x32 ![1] bcast_S32_S1x32_1 : (⟨S32, .f32⟩ : BufTy).Contents (Elt F) → (⟨S1x32, .f32⟩ : BufTy).Contents (Elt F)),
    unary main_v17 main_v18 (broadcastInDim S128x32 ![0, 1] bcast_S1x32_S128x32_0_1 : (⟨S1x32, .f32⟩ : BufTy).Contents (Elt F) → (⟨S128x32, .f32⟩ : BufTy).Contents (Elt F)),
    binary main_v16 main_v18 main_v19 (mulf : (⟨S128x32, .f32⟩ : BufTy).Contents (Elt F) → (⟨S128x32, .f32⟩ : BufTy).Contents (Elt F) → (⟨S128x32, .f32⟩ : BufTy).Contents (Elt F)),
    unary main_arg5 main_v20 (broadcastInDim S1x32 ![1] bcast_S32_S1x32_1 : (⟨S32, .f32⟩ : BufTy).Contents (Elt F) → (⟨S1x32, .f32⟩ : BufTy).Contents (Elt F)),
    unary main_v20 main_v21 (broadcastInDim S128x32 ![0, 1] bcast_S1x32_S128x32_0_1 : (⟨S1x32, .f32⟩ : BufTy).Contents (Elt F) → (⟨S128x32, .f32⟩ : BufTy).Contents (Elt F)),
    binary main_v19 main_v21 main_v22 (addf : (⟨S128x32, .f32⟩ : BufTy).Contents (Elt F) → (⟨S128x32, .f32⟩ : BufTy).Contents (Elt F) → (⟨S128x32, .f32⟩ : BufTy).Contents (Elt F)),
    -- the positive part (the callee @relu), over the buffers of main_call1
    TRef.nullary main_call1.cst (constant S_ .f32 0x00000000#32),
    TRef.unary main_call1.cst main_call1.v0 (broadcastInDim S128x32 ![] bcast_S_S128x32),
    TRef.binary (.of main_v22 : TRef sig ⟨S128x32, .f32⟩) main_call1.v0 main_call1.v1 maximumf,
    unary main_arg6 main_v24 ((transpose S32x4096 [1, 0] · transposes_S4096x32_S32x4096_1_0) : (⟨S4096x32, .f32⟩ : BufTy).Contents (Elt F) → (⟨S32x4096, .f32⟩ : BufTy).Contents (Elt F)),
    binary main_v23 main_v24 main_v25 ((fun l r => Host.dotGeneral dot_S128x32_S32x4096_S128x4096_1_0_0_1_n_n none l r) : (⟨S128x32, .f32⟩ : BufTy).Contents (Elt F) → (⟨S32x4096, .f32⟩ : BufTy).Contents (Elt F) → (⟨S128x4096, .f32⟩ : BufTy).Contents (Elt F)),
    unary main_arg7 main_v26 (broadcastInDim S1x4096 ![1] bcast_S4096_S1x4096_1 : (⟨S4096, .f32⟩ : BufTy).Contents (Elt F) → (⟨S1x4096, .f32⟩ : BufTy).Contents (Elt F)),
    unary main_v26 main_v27 (broadcastInDim S128x4096 ![0, 1] bcast_S1x4096_S128x4096_0_1 : (⟨S1x4096, .f32⟩ : BufTy).Contents (Elt F) → (⟨S128x4096, .f32⟩ : BufTy).Contents (Elt F)),
    binary main_v25 main_v27 main_v28 (addf : (⟨S128x4096, .f32⟩ : BufTy).Contents (Elt F) → (⟨S128x4096, .f32⟩ : BufTy).Contents (Elt F) → (⟨S128x4096, .f32⟩ : BufTy).Contents (Elt F)),
    reshape main_v28 main_v29 rfl shapeCasts_S128x4096_S128x64x64,
    unary main_arg8 main_v30 ((transpose S3x32 [1, 0] · transposes_S32x3_S3x32_1_0) : (⟨S32x3, .f32⟩ : BufTy).Contents (Elt F) → (⟨S3x32, .f32⟩ : BufTy).Contents (Elt F)),
    binary main_arg1 main_v30 main_v31 ((fun l r => Host.dotGeneral dot_S128x3_S3x32_S128x32_1_0_0_1_n_n none l r) : (⟨S128x3, .f32⟩ : BufTy).Contents (Elt F) → (⟨S3x32, .f32⟩ : BufTy).Contents (Elt F) → (⟨S128x32, .f32⟩ : BufTy).Contents (Elt F)),
    unary main_arg9 main_v32 (broadcastInDim S1x32 ![1] bcast_S32_S1x32_1 : (⟨S32, .f32⟩ : BufTy).Contents (Elt F) → (⟨S1x32, .f32⟩ : BufTy).Contents (Elt F)),
    unary main_v32 main_v33 (broadcastInDim S128x32 ![0, 1] bcast_S1x32_S128x32_0_1 : (⟨S1x32, .f32⟩ : BufTy).Contents (Elt F) → (⟨S128x32, .f32⟩ : BufTy).Contents (Elt F)),
    binary main_v31 main_v33 main_v34 (addf : (⟨S128x32, .f32⟩ : BufTy).Contents (Elt F) → (⟨S128x32, .f32⟩ : BufTy).Contents (Elt F) → (⟨S128x32, .f32⟩ : BufTy).Contents (Elt F)),
    nullary main_cst_2 (constant S_ .f32 0x00000000#32),
    binary main_v34 main_cst_2 main_v35 ((fun x v => Host.reduceAdd x v reducesTo_S128x32_S128_d1 h_S_) : (⟨S128x32, .f32⟩ : BufTy).Contents (Elt F) → (⟨S_, .f32⟩ : BufTy).Contents (Elt F) → (⟨S128, .f32⟩ : BufTy).Contents (Elt F)),
    unary main_v35 main_v36 (broadcastInDim S128x1 ![0] bcast_S128_S128x1_0 : (⟨S128, .f32⟩ : BufTy).Contents (Elt F) → (⟨S128x1, .f32⟩ : BufTy).Contents (Elt F)),
    nullary main_cst_3 (constant S_ .f32 0x42000000#32),
    unary main_cst_3 main_v37 (broadcastInDim S128x1 ![] bcast_S_S128x1 : (⟨S_, .f32⟩ : BufTy).Contents (Elt F) → (⟨S128x1, .f32⟩ : BufTy).Contents (Elt F)),
    binary main_v36 main_v37 main_v38 (Host.divf : (⟨S128x1, .f32⟩ : BufTy).Contents (Elt F) → (⟨S128x1, .f32⟩ : BufTy).Contents (Elt F) → (⟨S128x1, .f32⟩ : BufTy).Contents (Elt F)),
    nullary main_c_4 (constantI S_ 32 0#32),
    -- the rows' variance (the callee @_var), over the buffers of main_call2
    TRef.nullary main_call2.cst (constant S_ .f32 0x00000000#32),
    TRef.binary (.of main_v34 : TRef sig ⟨S128x32, .f32⟩) main_call2.cst main_call2.v0 (fun x v => Host.reduceAdd x v reducesTo_S128x32_S128_d1 h_S_),
    TRef.unary main_call2.v0 main_call2.v1 (broadcastInDim S128x1 ![0] bcast_S128_S128x1_0),
    TRef.nullary main_call2.cst_0 (constant S_ .f32 0x42000000#32),
    TRef.unary main_call2.cst_0 main_call2.v2 (broadcastInDim S128x1 ![] bcast_S_S128x1),
    TRef.binary main_call2.v1 main_call2.v2 main_call2.v3 Host.divf,
    TRef.unary main_call2.v3 main_call2.v4 (broadcastInDim S128x32 ![0, 1] bcast_S128x1_S128x32_0_1),
    TRef.binary (.of main_v34 : TRef sig ⟨S128x32, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x42000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S128x32_S128_d1 h_S_),
    TRef.unary main_call2.v9 main_call2.v10 (broadcastInDim S128x1 ![0] bcast_S128_S128x1_0),
    TRef.unary main_call2.v8 main_call2.v11 (broadcastInDim S128x1 ![] bcast_S_S128x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    -- the guarded choice (the callee @_where), over the buffers of main_call2.call0
    TRef.unary main_call2.cst_4 main_call2.call0.v0 id,
    TRef.unary main_call2.call0.v0 main_call2.call0.v1 (broadcastInDim S128x1 ![] bcast_S_S128x1),
    TRef.ternary main_call2.v13 main_call2.v12 main_call2.call0.v1 main_call2.call0.v2 (fun p a b => select (broadcastInDim S128x1 ![] bcast_S_S128x1 p) a b),
    unary main_v38 main_v40 (broadcastInDim S128x32 ![0, 1] bcast_S128x1_S128x32_0_1 : (⟨S128x1, .f32⟩ : BufTy).Contents (Elt F) → (⟨S128x32, .f32⟩ : BufTy).Contents (Elt F)),
    binary main_v34 main_v40 main_v41 (subf : (⟨S128x32, .f32⟩ : BufTy).Contents (Elt F) → (⟨S128x32, .f32⟩ : BufTy).Contents (Elt F) → (⟨S128x32, .f32⟩ : BufTy).Contents (Elt F)),
    nullary main_cst_5 (constant S_ .f32 0x3727C5AC#32),
    unary main_cst_5 main_v42 (broadcastInDim S128x1 ![] bcast_S_S128x1 : (⟨S_, .f32⟩ : BufTy).Contents (Elt F) → (⟨S128x1, .f32⟩ : BufTy).Contents (Elt F)),
    binary main_v39 main_v42 main_v43 (addf : (⟨S128x1, .f32⟩ : BufTy).Contents (Elt F) → (⟨S128x1, .f32⟩ : BufTy).Contents (Elt F) → (⟨S128x1, .f32⟩ : BufTy).Contents (Elt F)),
    unary main_v43 main_v44 (Host.rsqrt : (⟨S128x1, .f32⟩ : BufTy).Contents (Elt F) → (⟨S128x1, .f32⟩ : BufTy).Contents (Elt F)),
    unary main_v44 main_v45 (broadcastInDim S128x32 ![0, 1] bcast_S128x1_S128x32_0_1 : (⟨S128x1, .f32⟩ : BufTy).Contents (Elt F) → (⟨S128x32, .f32⟩ : BufTy).Contents (Elt F)),
    binary main_v41 main_v45 main_v46 (mulf : (⟨S128x32, .f32⟩ : BufTy).Contents (Elt F) → (⟨S128x32, .f32⟩ : BufTy).Contents (Elt F) → (⟨S128x32, .f32⟩ : BufTy).Contents (Elt F)),
    unary main_arg10 main_v47 (broadcastInDim S1x32 ![1] bcast_S32_S1x32_1 : (⟨S32, .f32⟩ : BufTy).Contents (Elt F) → (⟨S1x32, .f32⟩ : BufTy).Contents (Elt F)),
    unary main_v47 main_v48 (broadcastInDim S128x32 ![0, 1] bcast_S1x32_S128x32_0_1 : (⟨S1x32, .f32⟩ : BufTy).Contents (Elt F) → (⟨S128x32, .f32⟩ : BufTy).Contents (Elt F)),
    binary main_v46 main_v48 main_v49 (mulf : (⟨S128x32, .f32⟩ : BufTy).Contents (Elt F) → (⟨S128x32, .f32⟩ : BufTy).Contents (Elt F) → (⟨S128x32, .f32⟩ : BufTy).Contents (Elt F)),
    unary main_arg11 main_v50 (broadcastInDim S1x32 ![1] bcast_S32_S1x32_1 : (⟨S32, .f32⟩ : BufTy).Contents (Elt F) → (⟨S1x32, .f32⟩ : BufTy).Contents (Elt F)),
    unary main_v50 main_v51 (broadcastInDim S128x32 ![0, 1] bcast_S1x32_S128x32_0_1 : (⟨S1x32, .f32⟩ : BufTy).Contents (Elt F) → (⟨S128x32, .f32⟩ : BufTy).Contents (Elt F)),
    binary main_v49 main_v51 main_v52 (addf : (⟨S128x32, .f32⟩ : BufTy).Contents (Elt F) → (⟨S128x32, .f32⟩ : BufTy).Contents (Elt F) → (⟨S128x32, .f32⟩ : BufTy).Contents (Elt F)),
    -- the positive part (the callee @relu), over the buffers of main_call3
    TRef.nullary main_call3.cst (constant S_ .f32 0x00000000#32),
    TRef.unary main_call3.cst main_call3.v0 (broadcastInDim S128x32 ![] bcast_S_S128x32),
    TRef.binary (.of main_v52 : TRef sig ⟨S128x32, .f32⟩) main_call3.v0 main_call3.v1 maximumf,
    unary main_arg12 main_v54 ((transpose S32x64 [1, 0] · transposes_S64x32_S32x64_1_0) : (⟨S64x32, .f32⟩ : BufTy).Contents (Elt F) → (⟨S32x64, .f32⟩ : BufTy).Contents (Elt F)),
    binary main_v53 main_v54 main_v55 ((fun l r => Host.dotGeneral dot_S128x32_S32x64_S128x64_1_0_0_1_n_n none l r) : (⟨S128x32, .f32⟩ : BufTy).Contents (Elt F) → (⟨S32x64, .f32⟩ : BufTy).Contents (Elt F) → (⟨S128x64, .f32⟩ : BufTy).Contents (Elt F)),
    unary main_arg13 main_v56 (broadcastInDim S1x64 ![1] bcast_S64_S1x64_1 : (⟨S64, .f32⟩ : BufTy).Contents (Elt F) → (⟨S1x64, .f32⟩ : BufTy).Contents (Elt F)),
    unary main_v56 main_v57 (broadcastInDim S128x64 ![0, 1] bcast_S1x64_S128x64_0_1 : (⟨S1x64, .f32⟩ : BufTy).Contents (Elt F) → (⟨S128x64, .f32⟩ : BufTy).Contents (Elt F)),
    binary main_v55 main_v57 main_v58 (addf : (⟨S128x64, .f32⟩ : BufTy).Contents (Elt F) → (⟨S128x64, .f32⟩ : BufTy).Contents (Elt F) → (⟨S128x64, .f32⟩ : BufTy).Contents (Elt F)),
    binary main_v29 main_arg0 main_v59 ((fun l r => Host.dotGeneral dot_S128x64x64_S128x64x4096_S128x64x4096_2_1_1_2_0_0 none l r) : (⟨S128x64x64, .f32⟩ : BufTy).Contents (Elt F) → (⟨S128x64x4096, .f32⟩ : BufTy).Contents (Elt F) → (⟨S128x64x4096, .f32⟩ : BufTy).Contents (Elt F)),
    unary main_v58 main_v60 (broadcastInDim S128x64x1 ![0, 1] bcast_S128x64_S128x64x1_0_1 : (⟨S128x64, .f32⟩ : BufTy).Contents (Elt F) → (⟨S128x64x1, .f32⟩ : BufTy).Contents (Elt F)),
    unary main_v60 main_v61 (broadcastInDim S128x64x4096 ![0, 1, 2] bcast_S128x64x1_S128x64x4096_0_1_2 : (⟨S128x64x1, .f32⟩ : BufTy).Contents (Elt F) → (⟨S128x64x4096, .f32⟩ : BufTy).Contents (Elt F)),
    binary main_v59 main_v61 main_v62 (addf : (⟨S128x64x4096, .f32⟩ : BufTy).Contents (Elt F) → (⟨S128x64x4096, .f32⟩ : BufTy).Contents (Elt F) → (⟨S128x64x4096, .f32⟩ : BufTy).Contents (Elt F)) ]

set_option maxRecDepth 8192 in
set_option maxHeartbeats 4000000 in
/-- @main is that straight line: the two windows and the callees' definitions unfolded at their calls, both
    sides are one chain of steps once sequencing is reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., reshape_bufs_sub .., unary_bufs_sub .., binary_bufs_sub ..,
    unary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference computes, as one term of its arguments, and its last step read at an entry.

  The fold of the reference's 119 operations, read at its result buffer, is  conv (weight …) (bias …) x : each
  operation's result is its function applied to the results before it, the buffers in between hold exactly those
  intermediate values, and a call's operations act on the operands' buffers themselves, so substituting results for
  buffers from the last operation back to the arguments leaves the composed term. That term is, line for line, the
  one written in Head (two networks Linear → LayerNorm → ReLU → Linear of the conditioning vector, then the per-sample
  product plus bias), so the two agree by unfolding.

  On the extended reals the last step is, entry by entry,
      conv W B X (b, o, t) = Σ_{i < 64} W(b, o, i) · X(b, i, t) + B(b, o):
  the batched product contracts the weight's last axis with the input's middle axis (a sum over the one contracted
  coordinate), and the bias [128,64] is repeated first along a new unit axis and then along the last axis, so at
  (b, o, t) it reads B(b, o).
-/
import proofs.«100930_j83623013253335_2_alg».proof.Proof.RefRun
import proofs.«100930_j83623013253335_2_alg».proof.Proof.Head
import Idealize.ShloMosaic.Lib.ValueIdx
import Idealize.ShloMosaic.Lib.Pipeline.Value
import Idealize.ShloMosaic.Lib.StackMember

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

set_option maxRecDepth 16384 in
set_option maxHeartbeats 4000000 in
/-- The fold of the line at the result buffer is Head's term of the fourteen arguments: every operation's result
    substituted for the buffer it writes, back to the arguments (one rewriting pass, the references told apart by
    computation), after which the two sides are the same composition of the same operations, the typed references'
    transports being the identity at these literal references. -/
theorem out_eq {F : FTy → Type} [FloatOps F] (V : Valuation τ sig (Elt F)) :
    after ops V (main_v62 : DevRef τ sig)
      = Head.conv (Head.weight (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)))
          (Head.bias (V (main_arg1 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)))
          (V (main_arg0 : DevRef τ sig)) := by
  after_results_simp
  rfl

/-- The last four operations at an entry, on the extended reals: the sum over the contracted coordinate of the products
    of the weight's and the input's entries, plus the bias of that sample and row. -/
theorem conv_apply (W : FVec Ideal S128x64x64 .f32) (B : FVec Ideal S128x64 .f32) (X : FVec Ideal S128x64x4096 .f32) (b : Fin 128) (o : Fin 64) (t : Fin 4096) :
    Head.conv (F := Ideal) W B X (ix3 b o t) = (∑ i : Fin 64, W (ix3 b o i) * X (ix3 b i t)) + B (ix2 b o) := by
  unfold Head.conv
  refine (addf_apply _ _ _).trans ?_
  refine congrArg₂ (· + ·) ?_ ?_
  · exact StackMember.dotGeneral_stack_apply (G := 128) (m := 64) (n := 4096) (k := 64)
      Facts₀.dot_S128x64x64_S128x64x4096_S128x64x4096_2_1_1_2_0_0_wf none W X b o t
  · rw [broadcastInDim_apply (![0, 1, 2] : Fin 3 → Fin S128x64x4096.rank) bcast_S128x64x1_S128x64x4096_0_1_2 _
        (ix3 b o t) (ix3 b o (0 : Fin 1)) (fun a => by
          match a with
          | ⟨0, _⟩ => rfl
          | ⟨1, _⟩ => rfl
          | ⟨2, _⟩ => rfl),
      broadcastInDim_apply (![0, 1] : Fin 2 → Fin S128x64x1.rank) bcast_S128x64_S128x64x1_0_1 B
        (ix3 b o (0 : Fin 1)) (ix2 b o) (fun a => by
          match a with
          | ⟨0, _⟩ => rfl
          | ⟨1, _⟩ => rfl)]

end Cert.ReferenceIdeal.RefValue

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.SumDiag.lean ====
/-
  A sum over 256 positions whose left factors are block-diagonal.

  Split 0 … 255 into four consecutive blocks of 64. If the left factor L vanishes on every block but block `a`, where it is
  w, then  Σ_k L(k) · x(k)  is  Σ_i w(i) · x(64a + i):  the three other blocks contribute Σ 0 · x = 0. On the extended reals
  0 · x = 0 for EVERY x (infinite ones included) and addition is commutative and associative, which is all that is used:
  nothing is cancelled or distributed, so no finiteness of x is needed.
-/
import proofs.«100930_j83623013253335_2_alg».proof.Proof.LibSumBlocks
import Idealize.ShloMosaic.PureOps.Ideal

open scoped BigOperators

namespace Cert.SumDiag

theorem sum_blockDiag (a : Fin 4) (w : Fin 64 → EReal) (L x : Fin 256 → EReal)
    (hL : ∀ (a' : Fin 4) (i : Fin 64),
      L ⟨64 * a'.val + i.val, by have := a'.isLt; have := i.isLt; omega⟩ = if a = a' then w i else 0) :
    ∑ k : Fin 256, L k * x k = ∑ i : Fin 64, w i * x ⟨64 * a.val + i.val, by have := a.isLt; have := i.isLt; omega⟩ := by
  refine (Cert.LibSumBlocks.sum_blocks 4 64 (fun k : Fin (4 * 64) => L k * x k)).trans ?_
  have e : ∀ (a' : Fin 4) (i : Fin 64),
      (⟨a'.val * 64 + i.val, Cert.LibSumBlocks.block_index_lt a' i⟩ : Fin (4 * 64))
        = (⟨64 * a'.val + i.val, by have := a'.isLt; have := i.isLt; omega⟩ : Fin 256) :=
    fun a' i => Fin.ext (by show a'.val * 64 + i.val = 64 * a'.val + i.val; omega)
  rw [Finset.sum_eq_single a]
  · refine Finset.sum_congr rfl fun i _ => ?_
    show L _ * x _ = _
    rw [e a i, hL a i, if_pos rfl]
  · intro a' _ hne
    refine Finset.sum_eq_zero fun i _ => ?_
    show L _ * x _ = 0
    rw [e a' i, hL a' i, if_neg (Ne.symm hne), zero_mul]
  · intro h
    exact absurd (Finset.mem_univ a) h

end Cert.SumDiag
-- ==== Proof.Bridge.lean ====
/-
  The two programs compute one function of the argument arrays.

  With W the per-sample weight [128,64,64], B the per-sample bias [128,64] (both the shared networks' outputs) and X the
  input [128,64,4096], the reference forms  out(b,o,t) = Σ_i W(b,o,i) · X(b,i,t) + B(b,o).
  The kernel packs four samples per block: sample b = 4g + a sits in rows 64a … 64a+63 of block g; the packed weight
  [32,256,256] carries W(4g+a) on the a-th diagonal 64×64 block and zeros elsewhere, the packed input and bias are plain
  re-layouts. Entry (g, 64a+o, t) of the packed product is a 256-term sum in which only the 64 terms of block a survive
  (0 · x = 0 on the extended reals), and laying the packed output out as [128,64,4096] puts it at (4g+a, o, t).
-/
import proofs.«100930_j83623013253335_2_alg».proof.Proof.KerRun
import proofs.«100930_j83623013253335_2_alg».proof.Proof.KerHost
import proofs.«100930_j83623013253335_2_alg».proof.Proof.RefValue
import proofs.«100930_j83623013253335_2_alg».proof.Proof.SumDiag

noncomputable section

namespace Cert.Bridge

open Cert.KernelIdeal Cert.KernelIdeal.Gen Cert.KernelIdeal.HostPrefix Cert.KernelIdeal.Region
open Idealize.ShloMosaic Idealize.ShloMosaic.TcCoe Idealize.SL.Sem Idealize.ShloMosaic.ValueIdx

/-- Entry (4g + a, o, t) of the packed product laid out as [128,64,4096]: the 64-term sum of sample 4g + a. -/
theorem relayout_apply (W : FVec Ideal S128x64x64 .f32) (B : FVec Ideal S128x64 .f32) (X : FVec Ideal S128x64x4096 .f32)
    (g : Fin 32) (a : Fin 4) (o : Fin 64) (t : Fin 4096) :
    shapeCast S128x64x4096 (packed (packW W) (packB B) (packX X)) shapeCasts_S32x256x4096_S128x64x4096
        (ix3 (⟨4 * g.val + a.val, by have := g.isLt; have := a.isLt; omega⟩ : Fin 128) o t)
      = (∑ i : Fin 64, W (ix3 (⟨4 * g.val + a.val, by have := g.isLt; have := a.isLt; omega⟩ : Fin 128) o i)
            * X (ix3 (⟨4 * g.val + a.val, by have := g.isLt; have := a.isLt; omega⟩ : Fin 128) i t))
          + B (ix2 (⟨4 * g.val + a.val, by have := g.isLt; have := a.isLt; omega⟩ : Fin 128) o) := by
  have hg := g.isLt
  have ha := a.isLt
  have ho := o.isLt
  have ht := t.isLt
  refine (shapeCast_apply _ _ _ (ix3 g (⟨64 * a.val + o.val, by omega⟩ : Fin 256) t) (by
    rw [Shape.rowMajor_val_three, Shape.rowMajor_val_three]
    show (g.val * 256 + (64 * a.val + o.val)) * 4096 + t.val = ((4 * g.val + a.val) * 64 + o.val) * 4096 + t.val
    omega)).trans ?_
  show packedAt (packW W) (packB B) (packX X) g (⟨64 * a.val + o.val, by omega⟩ : Fin 256) t = _
  unfold packedAt
  refine congrArg₂ (· + ·) ?_ (packB_apply g a o B)
  refine (Cert.SumDiag.sum_blockDiag a
    (fun i => W (ix3 (⟨4 * g.val + a.val, by omega⟩ : Fin 128) o i))
    (fun k => packW W (ix3 g (⟨64 * a.val + o.val, by omega⟩ : Fin 256) k))
    (fun k => packX X (ix3 g k t))
    (fun a' i => packW_apply g a a' o i W)).trans ?_
  exact Finset.sum_congr rfl fun i _ => congrArg _ (packX_apply g a i t X)

/-- The kernel program's result is the reference's last four operations applied to the shared weight and bias and
    the input, as whole arrays. -/
theorem result_eq_conv (m : (ℓ : Loc nD τ sig) → Buf (Elt Ideal) ℓ) (c : Dev nD) :
    Region.result m c
      = Cert.ReferenceIdeal.Head.conv (F := Ideal)
          (Cert.ReferenceIdeal.Head.weight (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
          (Cert.ReferenceIdeal.Head.bias (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
          (m ((c : Thread nD τ).loc main_arg0)) := by
  refine (Region.result_congr m c _ _ _ (V_weight m c) (V_bias m c) (V_input m c)).trans ?_
  funext i
  obtain ⟨b, o, t, rfl⟩ : ∃ (b : Fin 128) (o : Fin 64) (t : Fin 4096), i = ix3 b o t := ⟨i 0, i 1, i 2, eq_ix3 i⟩
  obtain ⟨g, a, rfl⟩ : ∃ (g : Fin 32) (a : Fin 4), b = (⟨4 * g.val + a.val, by have := g.isLt; have := a.isLt; omega⟩ : Fin 128) :=
    ⟨⟨b.val / 4, by have := b.isLt; omega⟩, ⟨b.val % 4, by omega⟩,
      Fin.ext (by show b.val = 4 * (b.val / 4) + b.val % 4; omega)⟩
  exact (relayout_apply _ _ _ g a o t).trans (Cert.ReferenceIdeal.RefValue.conv_apply _ _ _ _ o t).symm

end Cert.Bridge

end
-- ==== Proof.RefArgs.lean ====
/-
  The reference's arguments are read-only. Each of the 119 operations of @main's straight line writes exactly
  one buffer, its own result, and the 119 result buffers are the program's values other than its arguments
  (`written` lists them, in program order). An argument buffer is not in that list, so the fold of the line's
  results leaves it as it was: `arg0_eq` … `arg13_eq`.
-/
import proofs.«100930_j83623013253335_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the line writes: each operation's result, in program order. -/
abbrev written : List (Ref sig .tc) :=
  [ main_v0, main_v1, main_v2, main_v3, main_v4, main_cst, main_v5, main_v6,
    main_cst_0, main_v7, main_v8, main_c, main_call0.cst.ref, main_call0.v0.ref, main_call0.v1.ref, main_call0.cst_0.ref,
    main_call0.v2.ref, main_call0.v3.ref, main_call0.v4.ref, main_call0.v5.ref, main_call0.v6.ref, main_call0.v7.ref, main_call0.cst_1.ref, main_call0.v8.ref,
    main_call0.cst_2.ref, main_call0.v9.ref, main_call0.v10.ref, main_call0.v11.ref, main_call0.v12.ref, main_call0.cst_3.ref, main_call0.v13.ref, main_call0.cst_4.ref,
    main_call0.call0.v0.ref, main_call0.call0.v1.ref, main_call0.call0.v2.ref, main_v10, main_v11, main_cst_1, main_v12, main_v13,
    main_v14, main_v15, main_v16, main_v17, main_v18, main_v19, main_v20, main_v21,
    main_v22, main_call1.cst.ref, main_call1.v0.ref, main_call1.v1.ref, main_v24, main_v25, main_v26, main_v27,
    main_v28, main_v29, main_v30, main_v31, main_v32, main_v33, main_v34, main_cst_2,
    main_v35, main_v36, main_cst_3, main_v37, main_v38, main_c_4, main_call2.cst.ref, main_call2.v0.ref,
    main_call2.v1.ref, main_call2.cst_0.ref, main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref, main_call2.v11.ref, main_call2.v12.ref, main_call2.cst_3.ref,
    main_call2.v13.ref, main_call2.cst_4.ref, main_call2.call0.v0.ref, main_call2.call0.v1.ref, main_call2.call0.v2.ref, main_v40, main_v41, main_cst_5,
    main_v42, main_v43, main_v44, main_v45, main_v46, main_v47, main_v48, main_v49,
    main_v50, main_v51, main_v52, main_call3.cst.ref, main_call3.v0.ref, main_call3.v1.ref, main_v54, main_v55,
    main_v56, main_v57, main_v58, main_v59, main_v60, main_v61, main_v62 ]

set_option maxRecDepth 8192 in
set_option maxHeartbeats 4000000 in
/-- Every operation of the line writes only its result buffer, which is in `written`. -/
theorem ops_writes : (ops : List (HloOp τ sig (Elt F))).Forall fun op =>
    op.writes ⊆ (written.map (Proc.devRef (τ := τ) .tc)).toFinset := by
  simp only [ops, List.Forall, nullary_writes, unary_writes, binary_writes, ternary_writes, reshape_writes,
    Finset.singleton_subset_iff, List.mem_toFinset, List.mem_map]
  repeat' apply And.intro
  all_goals exact ⟨_, by decide, rfl⟩

/-- No operation of the line writes `main_arg0`: it keeps its contents. -/
theorem arg0_eq (V : Valuation τ sig (Elt F)) : after ops V (main_arg0 : DevRef τ sig) = V (main_arg0 : DevRef τ sig) :=
  after_of_writes_sub ops V ops_writes (by decide)
/-- No operation of the line writes `main_arg1`: it keeps its contents. -/
theorem arg1_eq (V : Valuation τ sig (Elt F)) : after ops V (main_arg1 : DevRef τ sig) = V (main_arg1 : DevRef τ sig) :=
  after_of_writes_sub ops V ops_writes (by decide)
/-- No operation of the line writes `main_arg2`: it keeps its contents. -/
theorem arg2_eq (V : Valuation τ sig (Elt F)) : after ops V (main_arg2 : DevRef τ sig) = V (main_arg2 : DevRef τ sig) :=
  after_of_writes_sub ops V ops_writes (by decide)
/-- No operation of the line writes `main_arg3`: it keeps its contents. -/
theorem arg3_eq (V : Valuation τ sig (Elt F)) : after ops V (main_arg3 : DevRef τ sig) = V (main_arg3 : DevRef τ sig) :=
  after_of_writes_sub ops V ops_writes (by decide)
/-- No operation of the line writes `main_arg4`: it keeps its contents. -/
theorem arg4_eq (V : Valuation τ sig (Elt F)) : after ops V (main_arg4 : DevRef τ sig) = V (main_arg4 : DevRef τ sig) :=
  after_of_writes_sub ops V ops_writes (by decide)
/-- No operation of the line writes `main_arg5`: it keeps its contents. -/
theorem arg5_eq (V : Valuation τ sig (Elt F)) : after ops V (main_arg5 : DevRef τ sig) = V (main_arg5 : DevRef τ sig) :=
  after_of_writes_sub ops V ops_writes (by decide)
/-- No operation of the line writes `main_arg6`: it keeps its contents. -/
theorem arg6_eq (V : Valuation τ sig (Elt F)) : after ops V (main_arg6 : DevRef τ sig) = V (main_arg6 : DevRef τ sig) :=
  after_of_writes_sub ops V ops_writes (by decide)
/-- No operation of the line writes `main_arg7`: it keeps its contents. -/
theorem arg7_eq (V : Valuation τ sig (Elt F)) : after ops V (main_arg7 : DevRef τ sig) = V (main_arg7 : DevRef τ sig) :=
  after_of_writes_sub ops V ops_writes (by decide)
/-- No operation of the line writes `main_arg8`: it keeps its contents. -/
theorem arg8_eq (V : Valuation τ sig (Elt F)) : after ops V (main_arg8 : DevRef τ sig) = V (main_arg8 : DevRef τ sig) :=
  after_of_writes_sub ops V ops_writes (by decide)
/-- No operation of the line writes `main_arg9`: it keeps its contents. -/
theorem arg9_eq (V : Valuation τ sig (Elt F)) : after ops V (main_arg9 : DevRef τ sig) = V (main_arg9 : DevRef τ sig) :=
  after_of_writes_sub ops V ops_writes (by decide)
/-- No operation of the line writes `main_arg10`: it keeps its contents. -/
theorem arg10_eq (V : Valuation τ sig (Elt F)) : after ops V (main_arg10 : DevRef τ sig) = V (main_arg10 : DevRef τ sig) :=
  after_of_writes_sub ops V ops_writes (by decide)
/-- No operation of the line writes `main_arg11`: it keeps its contents. -/
theorem arg11_eq (V : Valuation τ sig (Elt F)) : after ops V (main_arg11 : DevRef τ sig) = V (main_arg11 : DevRef τ sig) :=
  after_of_writes_sub ops V ops_writes (by decide)
/-- No operation of the line writes `main_arg12`: it keeps its contents. -/
theorem arg12_eq (V : Valuation τ sig (Elt F)) : after ops V (main_arg12 : DevRef τ sig) = V (main_arg12 : DevRef τ sig) :=
  after_of_writes_sub ops V ops_writes (by decide)
/-- No operation of the line writes `main_arg13`: it keeps its contents. -/
theorem arg13_eq (V : Valuation τ sig (Elt F)) : after ops V (main_arg13 : DevRef τ sig) = V (main_arg13 : DevRef τ sig) :=
  after_of_writes_sub ops V ops_writes (by decide)

end Cert.ReferenceIdeal.RefRun

end
-- ==== Proof.lean ====
/-
  The certificate of a grouped 1×1 convolution whose per-sample weights and biases come from two small networks.

  Both programs first run the same two networks (Linear → LayerNorm → ReLU → Linear on the conditioning vector z),
  giving a weight W [128,64,64] and a bias B [128,64]; on this part the two printed programs are the same operations on
  the same literals, so it enters the proof as ONE function of the argument arrays (Proof/Head.lean) that is never opened.
  The reference then forms  out(b,o,t) = Σ_i W(b,o,i) · X(b,i,t) + B(b,o)  directly. The kernel packs four samples per
  pass: it builds a block-diagonal weight [32,256,256] (W(4g+a) on the a-th diagonal 64×64 block of block g, literal zeros
  elsewhere), lays X and B out as [32,256,4096] and [32,256,1], runs a 256-term product on a 32 × 2 grid of blocks, and
  lays the output back out as [128,64,4096].

  On the extended reals the two agree entry by entry: a change of float format is the identity, a product accumulated into
  zero is the plain sum, and in the 256-term sum of entry (g, 64a+o, t) the 192 terms off the diagonal block are 0 · x = 0
  whatever x is, leaving the reference's 64 terms (Proof/SumDiag.lean; only commutativity and associativity of + and
  0 · x = 0 are used, so the precondition is not needed for the equality of values).

  The modules: KerBlock (one grid point's stored block at an entry), KerValue (the region's output as one array, from the
  generated frame's proof data), KerRun (the kernel program's run with its host operation after the region), KerHost (the
  host operations before the region: the three window arrays as packings of W, B, X, and the packings at an entry; the
  block-diagonal build is a scatter that returns the update: LibSetScatter, BlockDiag), RefRun / RefArgs / RefValue (the
  reference's run as a list of its operations, its value, and its last four operations at an entry), Bridge (the two
  entries are one), and the three frames: the kernel's two are the generated ones, the reference's is its run.
  The ideal pass rewrote nothing, so `preserves` has no conjunct.
-/
import proofs.«100930_j83623013253335_2_alg».proof.Defs
import proofs.«100930_j83623013253335_2_alg».proof.Proof.Gen.Kernel
import proofs.«100930_j83623013253335_2_alg».proof.Proof.Gen.Kernel.Skeleton
import proofs.«100930_j83623013253335_2_alg».proof.Proof.Gen.Kernel.Launch
import proofs.«100930_j83623013253335_2_alg».proof.Proof.Gen.Kernel.Points
import proofs.«100930_j83623013253335_2_alg».proof.Proof.Gen.Kernel.Frame
import proofs.«100930_j83623013253335_2_alg».proof.Proof.Gen.KernelIdeal
import proofs.«100930_j83623013253335_2_alg».proof.Proof.Gen.KernelIdeal.Skeleton
import proofs.«100930_j83623013253335_2_alg».proof.Proof.Gen.KernelIdeal.Launch
import proofs.«100930_j83623013253335_2_alg».proof.Proof.Gen.KernelIdeal.Points
import proofs.«100930_j83623013253335_2_alg».proof.Proof.Gen.KernelIdeal.Frame
import proofs.«100930_j83623013253335_2_alg».proof.Proof.Gen.ReferenceIdeal
import proofs.«100930_j83623013253335_2_alg».proof.Proof.Gen.Pre_finite_inputs
import proofs.«100930_j83623013253335_2_alg».proof.Proof.Bridge
import proofs.«100930_j83623013253335_2_alg».proof.Proof.RefArgs
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments alone: the generated frame. -/
theorem frame_k : Cert.frame_Kernel := fun m ρ _ => Cert.Kernel.Gen.frame m ρ

/-- The same for the idealized kernel program. -/
theorem frame_ki : Cert.frame_KernelIdeal := fun m ρ _ => Cert.KernelIdeal.Gen.frame m ρ

/-- The reference runs and leaves its arguments alone: no operation of its list writes an argument buffer. -/
theorem frame_ri : Cert.frame_ReferenceIdeal := fun m ρ _ =>
  (θ_run Cert.ReferenceIdeal.defs _ _).mono (fun _ h c => ⟨
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _)⟩)
    (Cert.ReferenceIdeal.RefRun.run_main (F := Ideal) m ρ)

/-- The reference's result buffer after its run, as the last four operations applied to the shared weight and bias of
    ITS argument arrays. -/
theorem ref_result (m' : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m' c) (Cert.ReferenceIdeal.main_v62 : DevRef Cert.ReferenceIdeal.τ Cert.ReferenceIdeal.sig)
      = Cert.ReferenceIdeal.Head.conv (F := Ideal)
          (Cert.ReferenceIdeal.Head.weight (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
          (Cert.ReferenceIdeal.Head.bias (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)))
          (m' ((c.tc : Thread Cert.ReferenceIdeal.nD Cert.ReferenceIdeal.τ).loc Cert.ReferenceIdeal.main_arg0)) :=
  Cert.ReferenceIdeal.RefValue.out_eq (launchContents m' c)

/-- From memories that agree on the fourteen arguments the two idealized programs end with equal results. -/
theorem algebraic : Cert.algebraic_KernelIdeal_ReferenceIdeal := by
  intro m ρ m' ρ' _ hagree
  refine ⟨fun c => Cert.KernelIdeal.Region.result m c, Cert.KernelIdeal.Region.run m ρ, ?_⟩
  refine (θ_run Cert.ReferenceIdeal.defs _ _).mono (fun _ h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _)⟩)
    (Cert.ReferenceIdeal.RefRun.run_main (F := Ideal) m' ρ')
  refine (h c Cert.ReferenceIdeal.main_v62).trans ((ref_result m' c).trans ?_)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Bridge.result_eq_conv m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
